-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S16x40 .f32) (main_arg5 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg4
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : FVec F S3200000 .f32) (main_arg2 : FVec F S512x16 .f32) (main_arg3 : FVec F S16 .f32) (main_arg4 : FVec F S16x40 .f32) (main_arg5 : FVec F S40 .f32) (main_arg6 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S10000x16 : Shape := ⟨2, ![10000, 16]⟩
abbrev S100000x40 : Shape := ⟨2, ![100000, 40]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 88
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S3200000, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S2x3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S2x3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S100000x16, .f32⟩
  | .hbm, ⟨72, _⟩ => ⟨S100000x16, .f32⟩
  | .hbm, ⟨73, _⟩ => ⟨S100000x40, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x40, .f32⟩
  | .hbm, ⟨83, _⟩ => ⟨S3300000x1, .f32⟩
  | .hbm, ⟨84, _⟩ => ⟨S3300000x40, .f32⟩
  | .hbm, ⟨85, _⟩ => ⟨S3300000x40, .f32⟩
  | .hbm, ⟨86, _⟩ => ⟨S_, .f32⟩
  | .hbm, ⟨87, _⟩ => ⟨S100000x40, .f32⟩
  | .hbm, ⟨88, _⟩ => ⟨S3300000x1, .i32⟩
  | .hbm, ⟨89, _⟩ => ⟨S100000x40, .f32⟩
  | .hbm, ⟨90, _⟩ => ⟨S1x40, .f32⟩
  | .hbm, ⟨91, _⟩ => ⟨S100000x40, .f32⟩
  | .hbm, ⟨92, _⟩ => ⟨S100000x40, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x40, .f32⟩
  | .hbm, ⟨100, _⟩ => ⟨S100000x40, .f32⟩
  | .hbm, ⟨101, _⟩ => ⟨S100000x40, .f32⟩
  | .hbm, ⟨102, _⟩ => ⟨S_, .f32⟩
  | .hbm, ⟨103, _⟩ => ⟨S100000, .f32⟩
  | .hbm, ⟨104, _⟩ => ⟨S100000x1, .f32⟩
  | .hbm, ⟨105, _⟩ => ⟨S100000x1, .f32⟩
  | .hbm, ⟨106, _⟩ => ⟨S100000x40, .f32⟩
  | .hbm, ⟨107, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call2_cst : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_cst_1 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The kernel program's run, with its result named.

  The program is nine segments: stretches of whole-array operations and four tiled stages. Every weakly fair execution
  runs them in order and ends; the buffers it leaves are those the last segment boundary holds. Beside the argument arrays
  (which no segment writes) this reads off the one result array: it ends at the contents the last boundary gives it.
-/
import proofs.«167888_j10471130267748_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting; the result array then holds what the last
    segment boundary holds there, and the seven argument arrays are as launched. -/
theorem run_end : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ValueRun

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«167888_j10471130267748_1_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibGraphConvLayers.lean ====
/-
  The dense layers of a two-layer graph convolution, entry by entry over the extended reals.

  Between the neighbourhood sums a graph convolution applies, row by row, three dense maps:

    * the feature transform `x ↦ x · w`: at `(p, q)` the sum over `k` of `x (p, k) * w (k, q)`;
    * the hidden layer `a ↦ relu (a + b) · w`: the same sum with `max (a (p, k) + b k) 0` in place of `x (p, k)`;
    * the read-out `a ↦ log_softmax (a + b)` along each row: with `z k = a (p, k) + b k` and `μ` the maximum of the
      row's `z`, the entry at `(p, q)` is `(z q - μ) - log (∑ k, exp (z k - μ))`.

  Each entry depends on ONE row of the row-indexed operand only, so any tiling of the rows computes the same array.
  The zero of `relu` and the starting value of the row maximum are kept as the float words `0x00000000` and
  `0xFF800000` read at the ideal values: the same words stand on both sides of every comparison and are never evaluated,
  except that the row sum's starting word `0x00000000` is the number zero.

  The second half states the host's spelling of each map (a `dot_general`; `broadcast_in_dim`s of the bias,
  `maximum` with a broadcast zero, a `dot_general`; reductions kept as `[m, 1]` columns and spread back) as these
  functions of whole arrays.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167888_j10471130267748_1_alg».proof.Proof.LibMatProd
import proofs.«167888_j10471130267748_1_alg».proof.Proof.LibDense
import proofs.«167888_j10471130267748_1_alg».proof.Proof.LibRowReduce
import proofs.«167888_j10471130267748_1_alg».proof.Proof.LibRegionBlockSpread

noncomputable section

namespace GraphConvLayers

open Idealize.ShloMosaic Idealize.ShloMosaic.ValueIdx

/-- The float word zero, read at the ideal values. -/
abbrev zeroWord : EReal := Ideal.ofBits .f32 0x00000000#32
/-- The float word the row maximum starts from, read at the ideal values. -/
abbrev lowWord : EReal := Ideal.ofBits .f32 0xFF800000#32

/-- `relu (a + b)`, the bias `b` added along each row. -/
def biasRelu {M K : ℕ} (a : FVec Ideal ⟨2, ![M, K]⟩ .f32) (b : FVec Ideal ⟨1, ![K]⟩ .f32) : FVec Ideal ⟨2, ![M, K]⟩ .f32 :=
  fun i => max (a i + b (ix1 (i 1))) zeroWord

theorem biasRelu_apply {M K : ℕ} (a : FVec Ideal ⟨2, ![M, K]⟩ .f32) (b : FVec Ideal ⟨1, ![K]⟩ .f32) (p : Fin M) (k : Fin K) :
    biasRelu a b (ix2 p k) = max (a (ix2 p k) + b (ix1 k)) zeroWord := rfl

/-- The hidden layer `relu (a + b) · w`. -/
def hidden {M K N : ℕ} (a : FVec Ideal ⟨2, ![M, K]⟩ .f32) (b : FVec Ideal ⟨1, ![K]⟩ .f32) (w : FVec Ideal ⟨2, ![K, N]⟩ .f32) :
    FVec Ideal ⟨2, ![M, N]⟩ .f32 :=
  MatProd.matProd (biasRelu a b) w

theorem hidden_apply {M K N : ℕ} (a : FVec Ideal ⟨2, ![M, K]⟩ .f32) (b : FVec Ideal ⟨1, ![K]⟩ .f32)
    (w : FVec Ideal ⟨2, ![K, N]⟩ .f32) (p : Fin M) (q : Fin N) :
    hidden a b w (ix2 p q) = ∑ k : Fin K, max (a (ix2 p k) + b (ix1 k)) zeroWord * w (ix2 k q) := rfl

/-- Row `p` of `a + b`. -/
def biasedRow {M N : ℕ} (a : FVec Ideal ⟨2, ![M, N]⟩ .f32) (b : FVec Ideal ⟨1, ![N]⟩ .f32) (p : Fin M) : Fin N → EReal :=
  fun k => a (ix2 p k) + b (ix1 k)

/-- The maximum of a row, folded from the starting word. -/
def rowMax {N : ℕ} (z : Fin N → EReal) : EReal := (Finset.univ : Finset (Fin N)).fold max lowWord z

/-- `log_softmax` of one row at one position. -/
def rowLogSoftmax {N : ℕ} (z : Fin N → EReal) (q : Fin N) : EReal :=
  (z q - rowMax z) - Ideal.log (∑ k : Fin N, Ideal.exp (z k - rowMax z))

/-- The read-out `log_softmax (a + b)` along each row. -/
def biasLogSoftmax {M N : ℕ} (a : FVec Ideal ⟨2, ![M, N]⟩ .f32) (b : FVec Ideal ⟨1, ![N]⟩ .f32) : FVec Ideal ⟨2, ![M, N]⟩ .f32 :=
  fun i => rowLogSoftmax (biasedRow a b (i 0)) (i 1)

theorem biasLogSoftmax_apply {M N : ℕ} (a : FVec Ideal ⟨2, ![M, N]⟩ .f32) (b : FVec Ideal ⟨1, ![N]⟩ .f32) (p : Fin M) (q : Fin N) :
    biasLogSoftmax a b (ix2 p q) = rowLogSoftmax (biasedRow a b p) q := rfl

/-- Taking the maximum with the starting word once more changes nothing: the fold already lies above it. -/
theorem max_low_rowMax {N : ℕ} (z : Fin N → EReal) : max lowWord (rowMax z) = rowMax z :=
  max_eq_right ((Finset.le_fold_max lowWord).mpr (Or.inl le_rfl))

/-- A vector reshaped to one row and read back along that row is the vector. -/
theorem rowOf_cast {K : ℕ} (b : FVec Ideal ⟨1, ![K]⟩ .f32) (h : (⟨1, ![K]⟩ : Shape).ShapeCasts ⟨2, ![1, K]⟩) :
    (fun j : (⟨1, ![K]⟩ : Shape).Idx => shapeCast ⟨2, ![1, K]⟩ b h (ix2 (0 : Fin 1) (j 0 : Fin K))) = b := by
  funext j
  obtain ⟨k, rfl⟩ : ∃ k : Fin K, j = ix1 k := ⟨j 0, eq_ix1 j⟩
  exact shapeCast_a_1a_apply b h (0 : Fin 1) k

/-! ## The host's spelling of the three maps -/

/-- The host's hidden layer: the bias spread by two `broadcast_in_dim`s, `maximum` with a broadcast zero, a
    `dot_general` with the plain dimension numbers. -/
theorem host_hidden {M K N : ℕ} (d : DotDims ⟨2, ![M, K]⟩ ⟨2, ![K, N]⟩ ⟨2, ![M, N]⟩) (hd : d = DotDims.plain M K N)
    (prec : Option ContractPrecision) (sched : HostSchedule)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨1, ![K]⟩ .f32) (w : FVec Ideal ⟨2, ![K, N]⟩ .f32) :
    FloatOps.dotGeneral d prec sched
        (maximumf (addf a (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) w
      = hidden a b w := by
  rw [MatProd.dotGeneral_eq_matProd d hd]
  unfold hidden
  refine congrArg (fun v => MatProd.matProd v w) (funext fun i => ?_)
  obtain ⟨p, k, rfl⟩ : ∃ (p : Fin M) (k : Fin K), i = ix2 p k := ⟨i 0, i 1, eq_ix2 i⟩
  rw [biasRelu_apply, maximumf_apply, addf_apply, DenseLayer.inDimRow_apply]
  rfl

/-- The host's read-out: the bias spread by two `broadcast_in_dim`s; the row maximum by a `reduce` from the starting
    word, once more `maximum` with that word, kept as a column and spread back; `exponential`; the row sum by a
    `reduce` from zero, kept as a column, `log`, spread back. -/
theorem host_biasLogSoftmax {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (hr : (⟨2, ![M, N]⟩ : Shape).ReducesTo [1] ⟨1, ![M]⟩) (hr' : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hc : (⟨1, ![M]⟩ : Shape).BroadcastsInDim ⟨2, ![M, 1]⟩ ![0])
    (hs : (⟨2, ![M, 1]⟩ : Shape).BroadcastsInDim ⟨2, ![M, N]⟩ ![0, 1])
    (a : FVec Ideal ⟨2, ![M, N]⟩ .f32) (b : FVec Ideal ⟨1, ![N]⟩ .f32) :
    let z : FVec Ideal ⟨2, ![M, N]⟩ .f32 :=
        addf a (broadcastInDim ⟨2, ![M, N]⟩ ![0, 1] h2 (broadcastInDim ⟨2, ![1, N]⟩ ![1] h1 b))
    let sh : FVec Ideal ⟨2, ![M, N]⟩ .f32 :=
        subf z (broadcastInDim ⟨2, ![M, N]⟩ ![0, 1] hs (broadcastInDim ⟨2, ![M, 1]⟩ ![0] hc
          (maximumf (broadcastInDim ⟨1, ![M]⟩ ![] hb0 (constant (F := Ideal) ⟨0, ![]⟩ .f32 0xFF800000#32))
            (Host.reduce FloatOps.maximumf z (constant (F := Ideal) ⟨0, ![]⟩ .f32 0xFF800000#32) hr hu))))
    subf sh (broadcastInDim ⟨2, ![M, N]⟩ ![0, 1] hs (Host.log (broadcastInDim ⟨2, ![M, 1]⟩ ![0] hc
        (Host.reduceAdd (Host.exp sh) (constant (F := Ideal) ⟨0, ![]⟩ .f32 0x00000000#32) hr hu))))
      = biasLogSoftmax a b := by
  intro z sh
  have hz : ∀ (p : Fin M) (k : Fin N), z (ix2 p k) = biasedRow a b p k := fun p k => by
    show a (ix2 p k) + _ = _
    rw [DenseLayer.inDimRow_apply]; rfl
  have hsh : ∀ (p : Fin M) (k : Fin N), sh (ix2 p k) = biasedRow a b p k - rowMax (biasedRow a b p) := fun p k => by
    show z (ix2 p k) - _ = _
    rw [KeepDims.broadcastInDim_a1_ab_apply, KeepDims.broadcastInDim_a_a1_apply, maximumf_apply,
      RowReduce.hostReduce_maximumf_row z _ hr hr' hu p, hz]
    have e : (fun k => z (ix2 p k)) = biasedRow a b p := funext fun k => hz p k
    rw [e]
    exact congrArg (fun t => biasedRow a b p k - t) (max_low_rowMax (biasedRow a b p))
  funext i
  obtain ⟨p, q, rfl⟩ : ∃ (p : Fin M) (q : Fin N), i = ix2 p q := ⟨i 0, i 1, eq_ix2 i⟩
  rw [biasLogSoftmax_apply]
  show sh (ix2 p q) - _ = _
  rw [KeepDims.broadcastInDim_a1_ab_apply]
  have hlog : ∀ (v : FVec Ideal ⟨2, ![M, 1]⟩ .f32) (j : (⟨2, ![M, 1]⟩ : Shape).Idx), Host.log v j = Ideal.log (v j) :=
    fun _ _ => rfl
  rw [hlog, KeepDims.broadcastInDim_a_a1_apply, RowReduce.hostReduceAdd_row _ _ hr hr' hu p, hsh]
  have e : (fun k => Host.exp sh (ix2 p k)) = fun k => Ideal.exp (biasedRow a b p k - rowMax (biasedRow a b p)) :=
    funext fun k => congrArg Ideal.exp (hsh p k)
  unfold rowLogSoftmax
  refine congrArg (fun t => (biasedRow a b p q - rowMax (biasedRow a b p)) - Ideal.log t) ?_
  rw [show (∑ k : Fin N, Host.exp sh (ix2 p k)) = ∑ k : Fin N, Ideal.exp (biasedRow a b p k - rowMax (biasedRow a b p)) from
    Finset.sum_congr rfl fun k _ => congrFun e k]
  show Ideal.ofBits .f32 0x00000000#32 + _ = _
  rw [Ideal.ofBits_zero_f32, zero_add]

end GraphConvLayers

end
-- ==== Proof.KernelSpec.lean ====
/-
  A two-layer graph convolution as one function of its seven argument arrays.

  The graph has 100000 nodes and 3200000 weighted edges `(src e, dst e, w e)`; every node also gets a self loop of
  weight one, so there are 3300000 edges in all. With `deg n` the sum of the weights of the edges into `n` and
  `dinv n = deg n ^ (-1/2)` where `deg n > 0` (zero elsewhere), each edge carries the weight
  `norm e = dinv (src e) * w e * dinv (dst e)`, and the neighbourhood sum of a node array `h` is

      agg h n = ∑ over the edges e into n of h (src e) * norm e.

  The network is `log_softmax (agg (relu (agg (x · W1) + b1) · W2) + b2)` along each row. The edge list, the degrees, the
  edge weights and the two neighbourhood sums are kept exactly as the program spells them (slices, concatenations,
  gathers and scatter-adds of whole arrays): nothing in this file evaluates them.
-/
import proofs.«167888_j10471130267748_1_alg».proof.Proof.Gen.KernelIdeal
import proofs.«167888_j10471130267748_1_alg».proof.Proof.LibGraphConvLayers

noncomputable section

namespace Cert.KernelIdeal.Spec

open Cert.KernelIdeal Cert.KernelIdeal.Gen Idealize.ShloMosaic

/-- An array of 32-bit integers of shape `s`. -/
abbrev I32 (s : Shape) : Type := IVec s 32
/-- An array of numbers of shape `s`. -/
abbrev F32 (s : Shape) : Type := FVec Ideal s .f32

/-- Row `r` of the edge list followed by the node numbers `0 … 99999` (the self loops). -/
def ends (r : Fin 2 → ℕ) (hr : S2x3200000.Slices r S1x3200000) (ei : I32 S2x3200000) : I32 S3300000 :=
  concatenate S3300000 0 [⟨S3200000, shapeCast S3200000 (extractStridedSlice S1x3200000 r ei hr) shapeCasts_S1x3200000_S3200000⟩,
    ⟨S100000, iotaInDim S100000 32 0⟩] concatenates_S3200000_S100000_S3300000_d0

/-- The source node of every edge. -/
def src (ei : I32 S2x3200000) : I32 S3300000 := ends ![0, 0] slices_S2x3200000_S1x3200000_0_0 ei
/-- The target node of every edge. -/
def dst (ei : I32 S2x3200000) : I32 S3300000 := ends ![1, 0] slices_S2x3200000_S1x3200000_1_0 ei

/-- The weight of every edge: the given weights, then one for each self loop. -/
def weights (ew : F32 S3200000) : F32 S3300000 :=
  concatenate S3300000 0 [⟨S3200000, ew⟩,
    ⟨S100000, broadcastInDim S100000 ![] bcast_S_S100000 (constant (F := Ideal) S_ .f32 0x3F800000#32)⟩] concatenates_S3200000_S100000_S3300000_d0

/-- A list of node numbers as the one-column index array a gather or a scatter takes. -/
def asColumn (i : I32 S3300000) : I32 S3300000x1 := broadcastInDim S3300000x1 ![0] bcast_S3300000_S3300000x1_0 i

/-- A node number counted from the end when negative (`i + 100000` where `i < 0`). -/
def wrapped (i : I32 S3300000) : I32 S3300000 :=
  select (cmpi .slt i (broadcastInDim S3300000 ![] bcast_S_S3300000 (constantI S_ 32 0#32)))
    (addi i (broadcastInDim S3300000 ![] bcast_S_S3300000 (constantI S_ 32 100000#32))) i

/-- The weighted in-degree of every node. -/
def degree (ew : F32 S3200000) (ei : I32 S2x3200000) : F32 S100000 :=
  Host.scatterAdd scatter_S100000_S3300000x1_S3300000_n_0_0_1
    (broadcastInDim S100000 ![] bcast_S_S100000 (constant (F := Ideal) S_ .f32 0x00000000#32)) (asColumn (dst ei)) (weights ew)

/-- `deg ^ (-1/2)` where the degree is positive, zero elsewhere. -/
def invSqrtDegree (ew : F32 S3200000) (ei : I32 S2x3200000) : F32 S100000 :=
  select (cmpf .ogt (degree ew ei) (broadcastInDim S100000 ![] bcast_S_S100000 (constant (F := Ideal) S_ .f32 0x00000000#32)))
    (Host.rsqrt (degree ew ei))
    (broadcastInDim S100000 ![] bcast_S_S100000 (id (constant (F := Ideal) S_ .f32 0x00000000#32)))

/-- The normalised weight of every edge: `dinv (src e) * w e * dinv (dst e)`. -/
def norm (ew : F32 S3200000) (ei : I32 S2x3200000) : F32 S3300000 :=
  mulf (mulf (Host.gather gather_S100000_S3300000x1_S3300000_n_0_n_n_0_1_1 (invSqrtDegree ew ei) (asColumn (wrapped (src ei)))) (weights ew))
    (Host.gather gather_S100000_S3300000x1_S3300000_n_0_n_n_0_1_1 (invSqrtDegree ew ei) (asColumn (wrapped (dst ei))))

/-- The neighbourhood sum of a 16-column node array. -/
def agg16 (h : F32 S100000x16) (ew : F32 S3200000) (ei : I32 S2x3200000) : F32 S100000x16 :=
  Host.scatterAdd scatter_S100000x16_S3300000x1_S3300000x16_1_0_0_1
    (broadcastInDim S100000x16 ![] bcast_S_S100000x16 (constant (F := Ideal) S_ .f32 0x00000000#32)) (asColumn (dst ei))
    (mulf (Host.gather gather_S100000x16_S3300000x1_S3300000x16_1_0_n_n_0_1_116 h (asColumn (wrapped (src ei))))
      (broadcastInDim S3300000x16 ![0, 1] bcast_S3300000x1_S3300000x16_0_1
        (broadcastInDim S3300000x1 ![0] bcast_S3300000_S3300000x1_0 (norm ew ei))))

/-- The neighbourhood sum of a 40-column node array. -/
def agg40 (h : F32 S100000x40) (ew : F32 S3200000) (ei : I32 S2x3200000) : F32 S100000x40 :=
  Host.scatterAdd scatter_S100000x40_S3300000x1_S3300000x40_1_0_0_1
    (broadcastInDim S100000x40 ![] bcast_S_S100000x40 (constant (F := Ideal) S_ .f32 0x00000000#32)) (asColumn (dst ei))
    (mulf (Host.gather gather_S100000x40_S3300000x1_S3300000x40_1_0_n_n_0_1_140 h (asColumn (wrapped (src ei))))
      (broadcastInDim S3300000x40 ![0, 1] bcast_S3300000x1_S3300000x40_0_1
        (broadcastInDim S3300000x1 ![0] bcast_S3300000_S3300000x1_0 (norm ew ei))))

/-- The network: `log_softmax (agg (relu (agg (x · W1) + b1) · W2) + b2)`. -/
def network (x : F32 S100000x512) (ew : F32 S3200000) (w1 : F32 S512x16) (b1 : F32 S16) (w2 : F32 S16x40) (b2 : F32 S40)
    (ei : I32 S2x3200000) : F32 S100000x40 :=
  GraphConvLayers.biasLogSoftmax
    (agg40 (GraphConvLayers.hidden (agg16 (MatProd.matProd (φ₁ := .f32) (φ₂ := .f32) x w1) ew ei) b1 w2) ew ei) b2

end Cert.KernelIdeal.Spec

end
-- ==== Proof.LibRowVec.lean ====
/-
  A one-row matrix read as a vector.

  A bias enters each dense stage as a `[1, K]` row. Read along that row it is a vector of length `K`; and a vector
  reshaped to one row and read back along the row is the vector itself.
-/
import Idealize.ShloMosaic.Lib.ValueIdx
import Idealize.ShloMosaic.Lib.ValueLayout
import Idealize.ShloMosaic.Lib.Pipeline.Value

noncomputable section

namespace Gcn

open Idealize.ShloMosaic Idealize.ShloMosaic.ValueIdx

/-- The entries of a `[1, K]` row, as a vector of length `K`. -/
def rowVec {K : ℕ} {α : Type} (br : (⟨2, ![1, K]⟩ : Shape).Idx → α) : (⟨1, ![K]⟩ : Shape).Idx → α :=
  fun j => br (ix2 (0 : Fin 1) (j 0))

theorem rowVec_apply {K : ℕ} {α : Type} (br : (⟨2, ![1, K]⟩ : Shape).Idx → α) (k : Fin K) :
    rowVec br (ix1 k) = br (ix2 (0 : Fin 1) k) := rfl

/-- A vector reshaped to one row and read back along that row is the vector. -/
theorem rowVec_shapeCast {K : ℕ} {α : Type} (b : (⟨1, ![K]⟩ : Shape).Idx → α)
    (h : (⟨1, ![K]⟩ : Shape).ShapeCasts ⟨2, ![1, K]⟩) : rowVec (shapeCast ⟨2, ![1, K]⟩ b h) = b := by
  funext j
  obtain ⟨k, rfl⟩ : ∃ k : Fin K, j = ix1 k := ⟨j 0, eq_ix1 j⟩
  exact shapeCast_a_1a_apply b h (0 : Fin 1) k

end Gcn

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.KernelChain.lean ====
/-
  The kernel program's result array, read back through the segments.

  The program first builds, from the edge list and the edge weights alone, the source and target node of every edge and
  the normalised edge weights; no later segment writes these three arrays, nor the bias and weight arguments. Then four
  tiled stages alternate with two neighbourhood sums:

      h1 = x · W1,  a1 = agg h1,  r1 = relu (a1 + b1),  h2 = r1 · W2,  a2 = agg h2,  out = log_softmax (a2 + b2).

  Each stretch of whole-array operations is read over ANY contents it may be run from: the array a stretch writes is the
  operations' term of the arrays it reads, and every other array is as before. Reading the last boundary's contents of the
  result array back, one segment at a time, gives the network function of the seven argument arrays. What each tiled stage
  leaves in its output array (one whole-array function of its two input arrays, because every output row depends on one
  input row only) is taken as a hypothesis per stage.
-/
import proofs.«167888_j10471130267748_1_alg».proof.Proof.Gen.KernelIdeal.Frame
import proofs.«167888_j10471130267748_1_alg».proof.Proof.KernelSpec
import proofs.«167888_j10471130267748_1_alg».proof.Proof.LibRowVec
import proofs.«167888_j10471130267748_1_alg».proof.Proof.LibJoinedPair
import Idealize.ShloMosaic.Lib.StableHlo.Run

set_option maxRecDepth 65536

noncomputable section

namespace Cert.KernelIdeal.Chain

open Cert.KernelIdeal Cert.KernelIdeal.Gen
open Idealize.ShloMosaic Idealize.ShloMosaic.TcCoe Idealize.ShloMosaic.StableHlo
open Idealize.SL.Sem

/-- The buffer contents a tiled stage is entered from. -/
abbrev Entry : Type := (c : Dev nD) → (b : Ref sig .tc) → Buf (Elt Ideal) ((c : Thread nD τ).loc b)

/-- What the four tiled stages leave in their output arrays, each as one function of the stage's two input arrays. -/
structure Stages : Prop where
  product1 : ∀ (V : Entry) (c : Dev nD), (dat0 (F := Ideal) V c).arrAt 2 cfg0.N
      = MatProd.matProd (φ₁ := .f32) (φ₂ := .f32) (V c main_arg0) (V c main_arg2)
  biasRelu : ∀ (V : Entry) (c : Dev nD), (dat1 (F := Ideal) V c).arrAt 2 cfg1.N
      = GraphConvLayers.biasRelu (V c main_v46) (Gcn.rowVec (V c main_v47))
  product2 : ∀ (V : Entry) (c : Dev nD), (dat2 (F := Ideal) V c).arrAt 2 cfg2.N
      = MatProd.matProd (φ₁ := .f32) (φ₂ := .f32) (V c main_v48) (V c main_arg4)
  logSoftmax : ∀ (V : Entry) (c : Dev nD), (dat3 (F := Ideal) V c).arrAt 2 cfg3.N
      = GraphConvLayers.biasLogSoftmax (V c main_v62) (Gcn.rowVec (V c main_v63))

/-! ## Each stretch of whole-array operations, over any contents it is run from -/

section Stretches
variable (V : Valuation τ sig (Elt Ideal))

/-! The first stretch: the edges' ends, their weights, the degrees. -/

theorem first_src : after hostOps0 V (Proc.devRef .tc main_v3) = Spec.src (V (Proc.devRef .tc main_arg6)) := by read_fold <;> rfl
theorem first_dst : after hostOps0 V (Proc.devRef .tc main_v7) = Spec.dst (V (Proc.devRef .tc main_arg6)) := by read_fold <;> rfl
theorem first_weights : after hostOps0 V (Proc.devRef .tc main_v9) = Spec.weights (V (Proc.devRef .tc main_arg1)) := by read_fold <;> rfl
theorem first_positive : after hostOps0 V (Proc.devRef .tc main_v14)
    = cmpf .ogt (Spec.degree (V (Proc.devRef .tc main_arg1)) (V (Proc.devRef .tc main_arg6)))
        (broadcastInDim S100000 ![] bcast_S_S100000 (constant (F := Ideal) S_ .f32 0x00000000#32)) := by read_fold <;> rfl
theorem first_rsqrt : after hostOps0 V (Proc.devRef .tc main_v15)
    = Host.rsqrt (Spec.degree (V (Proc.devRef .tc main_arg1)) (V (Proc.devRef .tc main_arg6))) := by read_fold <;> rfl
theorem first_zero : after hostOps0 V (Proc.devRef .tc main_cst_2) = constant (F := Ideal) S_ .f32 0x00000000#32 := by read_fold <;> rfl
theorem first_keeps (b : Ref sig .tc) (hb : b = main_arg0 ∨ b = main_arg2 ∨ b = main_arg3 ∨ b = main_arg4 ∨ b = main_arg5) :
    after hostOps0 V (Proc.devRef .tc b) = V (Proc.devRef .tc b) := by
  rcases hb with rfl | rfl | rfl | rfl | rfl <;> read_fold

/-! The second stretch: the inverse square roots of the degrees, zero where the degree is not positive. -/

theorem second_select : after hostOps0_1 V (Proc.devRef .tc main_v16)
    = select (V (Proc.devRef .tc main_v14)) (V (Proc.devRef .tc main_v15))
        (broadcastInDim S100000 ![] bcast_S_S100000 (id (V (Proc.devRef .tc main_cst_2)))) := by read_fold <;> rfl
theorem second_keeps (b : Ref sig .tc)
    (hb : b = main_v3 ∨ b = main_v7 ∨ b = main_v9 ∨ b = main_arg0 ∨ b = main_arg2 ∨ b = main_arg3 ∨ b = main_arg4 ∨ b = main_arg5) :
    after hostOps0_1 V (Proc.devRef .tc b) = V (Proc.devRef .tc b) := by
  rcases hb with rfl | rfl | rfl | rfl | rfl | rfl | rfl | rfl <;> read_fold

/-! The third stretch: the normalised weight of every edge. -/

theorem third_norm : after hostOps0_2 V (Proc.devRef .tc main_v32)
    = (mulf (mulf (Host.gather gather_S100000_S3300000x1_S3300000_n_0_n_n_0_1_1 (V (Proc.devRef .tc main_v16)) (Spec.asColumn (Spec.wrapped (V (Proc.devRef .tc main_v3))))) (V (Proc.devRef .tc main_v9)))
        (Host.gather gather_S100000_S3300000x1_S3300000_n_0_n_n_0_1_1 (V (Proc.devRef .tc main_v16)) (Spec.asColumn (Spec.wrapped (V (Proc.devRef .tc main_v7))))) : Spec.F32 S3300000) := by
  read_fold <;> rfl
theorem third_keeps (b : Ref sig .tc)
    (hb : b = main_v3 ∨ b = main_v7 ∨ b = main_arg0 ∨ b = main_arg2 ∨ b = main_arg3 ∨ b = main_arg4 ∨ b = main_arg5) :
    after hostOps0_2 V (Proc.devRef .tc b) = V (Proc.devRef .tc b) := by
  rcases hb with rfl | rfl | rfl | rfl | rfl | rfl | rfl <;> read_fold

/-! The stretch after the first product: the neighbourhood sum of its 16 columns, and the first bias as a row. -/

theorem fourth_sum : after hostOps1 V (Proc.devRef .tc main_v46)
    = Host.scatterAdd scatter_S100000x16_S3300000x1_S3300000x16_1_0_0_1
        (broadcastInDim S100000x16 ![] bcast_S_S100000x16 (constant (F := Ideal) S_ .f32 0x00000000#32)) (Spec.asColumn (V (Proc.devRef .tc main_v7)))
        (mulf (Host.gather gather_S100000x16_S3300000x1_S3300000x16_1_0_n_n_0_1_116 (V (Proc.devRef .tc main_v33)) (Spec.asColumn (Spec.wrapped (V (Proc.devRef .tc main_v3)))))
          (broadcastInDim S3300000x16 ![0, 1] bcast_S3300000x1_S3300000x16_0_1
            (broadcastInDim S3300000x1 ![0] bcast_S3300000_S3300000x1_0 (V (Proc.devRef .tc main_v32))))) := by
  read_fold <;> rfl
theorem fourth_bias : after hostOps1 V (Proc.devRef .tc main_v47) = shapeCast S1x16 (V (Proc.devRef .tc main_arg3)) shapeCasts_S16_S1x16 := by
  read_fold <;> rfl
theorem fourth_keeps (b : Ref sig .tc) (hb : b = main_v3 ∨ b = main_v7 ∨ b = main_v32 ∨ b = main_arg4 ∨ b = main_arg5) :
    after hostOps1 V (Proc.devRef .tc b) = V (Proc.devRef .tc b) := by
  rcases hb with rfl | rfl | rfl | rfl | rfl <;> read_fold

/-! The stretch after the second product: the neighbourhood sum of its 40 columns, and the second bias as a row. -/

theorem fifth_sum : after hostOps3 V (Proc.devRef .tc main_v62)
    = Host.scatterAdd scatter_S100000x40_S3300000x1_S3300000x40_1_0_0_1
        (broadcastInDim S100000x40 ![] bcast_S_S100000x40 (constant (F := Ideal) S_ .f32 0x00000000#32)) (Spec.asColumn (V (Proc.devRef .tc main_v7)))
        (mulf (Host.gather gather_S100000x40_S3300000x1_S3300000x40_1_0_n_n_0_1_140 (V (Proc.devRef .tc main_v49)) (Spec.asColumn (Spec.wrapped (V (Proc.devRef .tc main_v3)))))
          (broadcastInDim S3300000x40 ![0, 1] bcast_S3300000x1_S3300000x40_0_1
            (broadcastInDim S3300000x1 ![0] bcast_S3300000_S3300000x1_0 (V (Proc.devRef .tc main_v32))))) := by
  read_fold <;> rfl
theorem fifth_bias : after hostOps3 V (Proc.devRef .tc main_v63) = shapeCast S1x40 (V (Proc.devRef .tc main_arg5)) shapeCasts_S40_S1x40 := by
  read_fold <;> rfl

end Stretches

/-! ## The boundaries between the segments -/

variable (m : (ℓ : Loc nD τ sig) → Buf (Elt Ideal) ℓ) (ρ : Dev nD → PrngReg)

/-! After the first stretch. -/

theorem W1_src (c : Dev nD) : W1 m ρ c (Proc.devRef .tc main_v3) = Spec.src (m ((c : Thread nD τ).loc main_arg6)) := first_src (W0 m ρ c)
theorem W1_dst (c : Dev nD) : W1 m ρ c (Proc.devRef .tc main_v7) = Spec.dst (m ((c : Thread nD τ).loc main_arg6)) := first_dst (W0 m ρ c)
theorem W1_weights (c : Dev nD) : W1 m ρ c (Proc.devRef .tc main_v9) = Spec.weights (m ((c : Thread nD τ).loc main_arg1)) := first_weights (W0 m ρ c)
theorem W1_positive (c : Dev nD) : W1 m ρ c (Proc.devRef .tc main_v14)
    = cmpf .ogt (Spec.degree (m ((c : Thread nD τ).loc main_arg1)) (m ((c : Thread nD τ).loc main_arg6)))
        (broadcastInDim S100000 ![] bcast_S_S100000 (constant (F := Ideal) S_ .f32 0x00000000#32)) := first_positive (W0 m ρ c)
theorem W1_rsqrt (c : Dev nD) : W1 m ρ c (Proc.devRef .tc main_v15) = Host.rsqrt (Spec.degree (m ((c : Thread nD τ).loc main_arg1)) (m ((c : Thread nD τ).loc main_arg6))) := first_rsqrt (W0 m ρ c)
theorem W1_zero (c : Dev nD) : W1 m ρ c (Proc.devRef .tc main_cst_2) = constant (F := Ideal) S_ .f32 0x00000000#32 := first_zero (W0 m ρ c)
theorem W1_arg0 (c : Dev nD) : W1 m ρ c (Proc.devRef .tc main_arg0) = m ((c : Thread nD τ).loc main_arg0) := first_keeps (W0 m ρ c) main_arg0 (Or.inl rfl)
theorem W1_arg2 (c : Dev nD) : W1 m ρ c (Proc.devRef .tc main_arg2) = m ((c : Thread nD τ).loc main_arg2) := first_keeps (W0 m ρ c) main_arg2 (Or.inr (Or.inl rfl))
theorem W1_arg3 (c : Dev nD) : W1 m ρ c (Proc.devRef .tc main_arg3) = m ((c : Thread nD τ).loc main_arg3) := first_keeps (W0 m ρ c) main_arg3 (Or.inr (Or.inr (Or.inl rfl)))
theorem W1_arg4 (c : Dev nD) : W1 m ρ c (Proc.devRef .tc main_arg4) = m ((c : Thread nD τ).loc main_arg4) := first_keeps (W0 m ρ c) main_arg4 (Or.inr (Or.inr (Or.inr (Or.inl rfl))))
theorem W1_arg5 (c : Dev nD) : W1 m ρ c (Proc.devRef .tc main_arg5) = m ((c : Thread nD τ).loc main_arg5) := first_keeps (W0 m ρ c) main_arg5 (Or.inr (Or.inr (Or.inr (Or.inr (rfl)))))

/-! After the second stretch. -/

theorem W2_invSqrtDegree (c : Dev nD) : W2 m ρ c (Proc.devRef .tc main_v16) = Spec.invSqrtDegree (m ((c : Thread nD τ).loc main_arg1)) (m ((c : Thread nD τ).loc main_arg6)) := by
  refine (second_select (W1 m ρ c)).trans ?_
  rw [W1_positive m ρ c, W1_rsqrt m ρ c, W1_zero m ρ c]
  rfl
theorem W2_src (c : Dev nD) : W2 m ρ c (Proc.devRef .tc main_v3) = Spec.src (m ((c : Thread nD τ).loc main_arg6)) :=
  (second_keeps (W1 m ρ c) main_v3 (Or.inl rfl)).trans (W1_src m ρ c)
theorem W2_dst (c : Dev nD) : W2 m ρ c (Proc.devRef .tc main_v7) = Spec.dst (m ((c : Thread nD τ).loc main_arg6)) :=
  (second_keeps (W1 m ρ c) main_v7 (Or.inr (Or.inl rfl))).trans (W1_dst m ρ c)
theorem W2_weights (c : Dev nD) : W2 m ρ c (Proc.devRef .tc main_v9) = Spec.weights (m ((c : Thread nD τ).loc main_arg1)) :=
  (second_keeps (W1 m ρ c) main_v9 (Or.inr (Or.inr (Or.inl rfl)))).trans (W1_weights m ρ c)
theorem W2_arg0 (c : Dev nD) : W2 m ρ c (Proc.devRef .tc main_arg0) = m ((c : Thread nD τ).loc main_arg0) :=
  (second_keeps (W1 m ρ c) main_arg0 (Or.inr (Or.inr (Or.inr (Or.inl rfl))))).trans (W1_arg0 m ρ c)
theorem W2_arg2 (c : Dev nD) : W2 m ρ c (Proc.devRef .tc main_arg2) = m ((c : Thread nD τ).loc main_arg2) :=
  (second_keeps (W1 m ρ c) main_arg2 (Or.inr (Or.inr (Or.inr (Or.inr (Or.inl rfl)))))).trans (W1_arg2 m ρ c)
theorem W2_arg3 (c : Dev nD) : W2 m ρ c (Proc.devRef .tc main_arg3) = m ((c : Thread nD τ).loc main_arg3) :=
  (second_keeps (W1 m ρ c) main_arg3 (Or.inr (Or.inr (Or.inr (Or.inr (Or.inr (Or.inl rfl))))))).trans (W1_arg3 m ρ c)
theorem W2_arg4 (c : Dev nD) : W2 m ρ c (Proc.devRef .tc main_arg4) = m ((c : Thread nD τ).loc main_arg4) :=
  (second_keeps (W1 m ρ c) main_arg4 (Or.inr (Or.inr (Or.inr (Or.inr (Or.inr (Or.inr (Or.inl rfl)))))))).trans (W1_arg4 m ρ c)
theorem W2_arg5 (c : Dev nD) : W2 m ρ c (Proc.devRef .tc main_arg5) = m ((c : Thread nD τ).loc main_arg5) :=
  (second_keeps (W1 m ρ c) main_arg5 (Or.inr (Or.inr (Or.inr (Or.inr (Or.inr (Or.inr (Or.inr (rfl))))))))).trans (W1_arg5 m ρ c)

/-! After the third stretch: what the first tiled stage is entered from. -/

theorem W3_norm (c : Dev nD) : W3 m ρ c (Proc.devRef .tc main_v32) = Spec.norm (m ((c : Thread nD τ).loc main_arg1)) (m ((c : Thread nD τ).loc main_arg6)) := by
  refine (third_norm (W2 m ρ c)).trans ?_
  rw [W2_invSqrtDegree m ρ c, W2_src m ρ c, W2_dst m ρ c, W2_weights m ρ c]
  rfl
theorem W3_src (c : Dev nD) : W3 m ρ c (Proc.devRef .tc main_v3) = Spec.src (m ((c : Thread nD τ).loc main_arg6)) :=
  (third_keeps (W2 m ρ c) main_v3 (Or.inl rfl)).trans (W2_src m ρ c)
theorem W3_dst (c : Dev nD) : W3 m ρ c (Proc.devRef .tc main_v7) = Spec.dst (m ((c : Thread nD τ).loc main_arg6)) :=
  (third_keeps (W2 m ρ c) main_v7 (Or.inr (Or.inl rfl))).trans (W2_dst m ρ c)
theorem W3_arg0 (c : Dev nD) : W3 m ρ c (Proc.devRef .tc main_arg0) = m ((c : Thread nD τ).loc main_arg0) :=
  (third_keeps (W2 m ρ c) main_arg0 (Or.inr (Or.inr (Or.inl rfl)))).trans (W2_arg0 m ρ c)
theorem W3_arg2 (c : Dev nD) : W3 m ρ c (Proc.devRef .tc main_arg2) = m ((c : Thread nD τ).loc main_arg2) :=
  (third_keeps (W2 m ρ c) main_arg2 (Or.inr (Or.inr (Or.inr (Or.inl rfl))))).trans (W2_arg2 m ρ c)
theorem W3_arg3 (c : Dev nD) : W3 m ρ c (Proc.devRef .tc main_arg3) = m ((c : Thread nD τ).loc main_arg3) :=
  (third_keeps (W2 m ρ c) main_arg3 (Or.inr (Or.inr (Or.inr (Or.inr (Or.inl rfl)))))).trans (W2_arg3 m ρ c)
theorem W3_arg4 (c : Dev nD) : W3 m ρ c (Proc.devRef .tc main_arg4) = m ((c : Thread nD τ).loc main_arg4) :=
  (third_keeps (W2 m ρ c) main_arg4 (Or.inr (Or.inr (Or.inr (Or.inr (Or.inr (Or.inl rfl))))))).trans (W2_arg4 m ρ c)
theorem W3_arg5 (c : Dev nD) : W3 m ρ c (Proc.devRef .tc main_arg5) = m ((c : Thread nD τ).loc main_arg5) :=
  (third_keeps (W2 m ρ c) main_arg5 (Or.inr (Or.inr (Or.inr (Or.inr (Or.inr (Or.inr (rfl)))))))).trans (W2_arg5 m ρ c)

/-! After the first tiled stage: `x · W1` in its output array, everything else as entered. -/

theorem W4_src (c : Dev nD) : W4 m ρ c (Proc.devRef .tc main_v3) = Spec.src (m ((c : Thread nD τ).loc main_arg6)) := (W4_of_ne m ρ c main_v3 (by decide)).trans (W3_src m ρ c)
theorem W4_dst (c : Dev nD) : W4 m ρ c (Proc.devRef .tc main_v7) = Spec.dst (m ((c : Thread nD τ).loc main_arg6)) := (W4_of_ne m ρ c main_v7 (by decide)).trans (W3_dst m ρ c)
theorem W4_norm (c : Dev nD) : W4 m ρ c (Proc.devRef .tc main_v32) = Spec.norm (m ((c : Thread nD τ).loc main_arg1)) (m ((c : Thread nD τ).loc main_arg6)) := (W4_of_ne m ρ c main_v32 (by decide)).trans (W3_norm m ρ c)
theorem W4_arg3 (c : Dev nD) : W4 m ρ c (Proc.devRef .tc main_arg3) = m ((c : Thread nD τ).loc main_arg3) := (W4_of_ne m ρ c main_arg3 (by decide)).trans (W3_arg3 m ρ c)
theorem W4_arg4 (c : Dev nD) : W4 m ρ c (Proc.devRef .tc main_arg4) = m ((c : Thread nD τ).loc main_arg4) := (W4_of_ne m ρ c main_arg4 (by decide)).trans (W3_arg4 m ρ c)
theorem W4_arg5 (c : Dev nD) : W4 m ρ c (Proc.devRef .tc main_arg5) = m ((c : Thread nD τ).loc main_arg5) := (W4_of_ne m ρ c main_arg5 (by decide)).trans (W3_arg5 m ρ c)

section
variable (st : Stages)
include st

theorem W4_product (c : Dev nD) : W4 m ρ c (Proc.devRef .tc main_v33) = MatProd.matProd (φ₁ := .f32) (φ₂ := .f32) (m ((c : Thread nD τ).loc main_arg0)) (m ((c : Thread nD τ).loc main_arg2)) := by
  refine ((W4_arr m ρ c 2).trans (st.product1 (V3 m ρ) c)).trans ?_
  dsimp only [V3]
  rw [W3_arg0 m ρ c, W3_arg2 m ρ c]

/-! After the first neighbourhood sum: what the second tiled stage is entered from. -/

theorem W5_sum (c : Dev nD) : W5 m ρ c (Proc.devRef .tc main_v46)
    = Spec.agg16 (MatProd.matProd (φ₁ := .f32) (φ₂ := .f32) (m ((c : Thread nD τ).loc main_arg0)) (m ((c : Thread nD τ).loc main_arg2))) (m ((c : Thread nD τ).loc main_arg1)) (m ((c : Thread nD τ).loc main_arg6)) := by
  refine (fourth_sum (W4 m ρ c)).trans ?_
  rw [W4_product m ρ st c, W4_src m ρ c, W4_dst m ρ c, W4_norm m ρ c]
  rfl

end

theorem W5_bias (c : Dev nD) : W5 m ρ c (Proc.devRef .tc main_v47) = shapeCast S1x16 (m ((c : Thread nD τ).loc main_arg3)) shapeCasts_S16_S1x16 := by
  refine (fourth_bias (W4 m ρ c)).trans ?_
  rw [W4_arg3 m ρ c]
theorem W5_src (c : Dev nD) : W5 m ρ c (Proc.devRef .tc main_v3) = Spec.src (m ((c : Thread nD τ).loc main_arg6)) := (fourth_keeps (W4 m ρ c) main_v3 (Or.inl rfl)).trans (W4_src m ρ c)
theorem W5_dst (c : Dev nD) : W5 m ρ c (Proc.devRef .tc main_v7) = Spec.dst (m ((c : Thread nD τ).loc main_arg6)) := (fourth_keeps (W4 m ρ c) main_v7 (Or.inr (Or.inl rfl))).trans (W4_dst m ρ c)
theorem W5_norm (c : Dev nD) : W5 m ρ c (Proc.devRef .tc main_v32) = Spec.norm (m ((c : Thread nD τ).loc main_arg1)) (m ((c : Thread nD τ).loc main_arg6)) := (fourth_keeps (W4 m ρ c) main_v32 (Or.inr (Or.inr (Or.inl rfl)))).trans (W4_norm m ρ c)
theorem W5_arg4 (c : Dev nD) : W5 m ρ c (Proc.devRef .tc main_arg4) = m ((c : Thread nD τ).loc main_arg4) := (fourth_keeps (W4 m ρ c) main_arg4 (Or.inr (Or.inr (Or.inr (Or.inl rfl))))).trans (W4_arg4 m ρ c)
theorem W5_arg5 (c : Dev nD) : W5 m ρ c (Proc.devRef .tc main_arg5) = m ((c : Thread nD τ).loc main_arg5) := (fourth_keeps (W4 m ρ c) main_arg5 (Or.inr (Or.inr (Or.inr (Or.inr (rfl)))))).trans (W4_arg5 m ρ c)

/-! After the second and the third tiled stage: `relu (a1 + b1)`, then its product with `W2`. -/

theorem W6_src (c : Dev nD) : W6 m ρ c (Proc.devRef .tc main_v3) = Spec.src (m ((c : Thread nD τ).loc main_arg6)) := (W6_of_ne m ρ c main_v3 (by decide)).trans (W5_src m ρ c)
theorem W6_dst (c : Dev nD) : W6 m ρ c (Proc.devRef .tc main_v7) = Spec.dst (m ((c : Thread nD τ).loc main_arg6)) := (W6_of_ne m ρ c main_v7 (by decide)).trans (W5_dst m ρ c)
theorem W6_norm (c : Dev nD) : W6 m ρ c (Proc.devRef .tc main_v32) = Spec.norm (m ((c : Thread nD τ).loc main_arg1)) (m ((c : Thread nD τ).loc main_arg6)) := (W6_of_ne m ρ c main_v32 (by decide)).trans (W5_norm m ρ c)
theorem W6_arg4 (c : Dev nD) : W6 m ρ c (Proc.devRef .tc main_arg4) = m ((c : Thread nD τ).loc main_arg4) := (W6_of_ne m ρ c main_arg4 (by decide)).trans (W5_arg4 m ρ c)
theorem W6_arg5 (c : Dev nD) : W6 m ρ c (Proc.devRef .tc main_arg5) = m ((c : Thread nD τ).loc main_arg5) := (W6_of_ne m ρ c main_arg5 (by decide)).trans (W5_arg5 m ρ c)
theorem W7_src (c : Dev nD) : W7 m ρ c (Proc.devRef .tc main_v3) = Spec.src (m ((c : Thread nD τ).loc main_arg6)) := (W7_of_ne m ρ c main_v3 (by decide)).trans (W6_src m ρ c)
theorem W7_dst (c : Dev nD) : W7 m ρ c (Proc.devRef .tc main_v7) = Spec.dst (m ((c : Thread nD τ).loc main_arg6)) := (W7_of_ne m ρ c main_v7 (by decide)).trans (W6_dst m ρ c)
theorem W7_norm (c : Dev nD) : W7 m ρ c (Proc.devRef .tc main_v32) = Spec.norm (m ((c : Thread nD τ).loc main_arg1)) (m ((c : Thread nD τ).loc main_arg6)) := (W7_of_ne m ρ c main_v32 (by decide)).trans (W6_norm m ρ c)
theorem W7_arg5 (c : Dev nD) : W7 m ρ c (Proc.devRef .tc main_arg5) = m ((c : Thread nD τ).loc main_arg5) := (W7_of_ne m ρ c main_arg5 (by decide)).trans (W6_arg5 m ρ c)

section
variable (st : Stages)
include st

theorem W6_relu (c : Dev nD) : W6 m ρ c (Proc.devRef .tc main_v48)
    = GraphConvLayers.biasRelu (Spec.agg16 (MatProd.matProd (φ₁ := .f32) (φ₂ := .f32) (m ((c : Thread nD τ).loc main_arg0)) (m ((c : Thread nD τ).loc main_arg2))) (m ((c : Thread nD τ).loc main_arg1)) (m ((c : Thread nD τ).loc main_arg6))) (m ((c : Thread nD τ).loc main_arg3)) := by
  refine ((W6_arr m ρ c 2).trans (st.biasRelu (V5 m ρ) c)).trans ?_
  dsimp only [V5]
  rw [W5_sum m ρ st c, W5_bias m ρ c, Gcn.rowVec_shapeCast]

theorem W7_hidden (c : Dev nD) : W7 m ρ c (Proc.devRef .tc main_v49)
    = GraphConvLayers.hidden (Spec.agg16 (MatProd.matProd (φ₁ := .f32) (φ₂ := .f32) (m ((c : Thread nD τ).loc main_arg0)) (m ((c : Thread nD τ).loc main_arg2))) (m ((c : Thread nD τ).loc main_arg1)) (m ((c : Thread nD τ).loc main_arg6))) (m ((c : Thread nD τ).loc main_arg3)) (m ((c : Thread nD τ).loc main_arg4)) := by
  refine ((W7_arr m ρ c 2).trans (st.product2 (V6 m ρ) c)).trans ?_
  dsimp only [V6]
  rw [W6_relu m ρ st c, W6_arg4 m ρ c]
  rfl

/-! After the second neighbourhood sum, and the last tiled stage. -/

theorem W8_sum (c : Dev nD) : W8 m ρ c (Proc.devRef .tc main_v62)
    = Spec.agg40 (GraphConvLayers.hidden (Spec.agg16 (MatProd.matProd (φ₁ := .f32) (φ₂ := .f32) (m ((c : Thread nD τ).loc main_arg0)) (m ((c : Thread nD τ).loc main_arg2))) (m ((c : Thread nD τ).loc main_arg1)) (m ((c : Thread nD τ).loc main_arg6))) (m ((c : Thread nD τ).loc main_arg3)) (m ((c : Thread nD τ).loc main_arg4))) (m ((c : Thread nD τ).loc main_arg1)) (m ((c : Thread nD τ).loc main_arg6)) := by
  refine (fifth_sum (W7 m ρ c)).trans ?_
  rw [W7_hidden m ρ st c, W7_src m ρ c, W7_dst m ρ c, W7_norm m ρ c]
  rfl

end

theorem W8_bias (c : Dev nD) : W8 m ρ c (Proc.devRef .tc main_v63) = shapeCast S1x40 (m ((c : Thread nD τ).loc main_arg5)) shapeCasts_S40_S1x40 := by
  refine (fifth_bias (W7 m ρ c)).trans ?_
  rw [W7_arg5 m ρ c]

/-- THE RESULT: the last boundary holds, in the result array, the network function of the seven argument arrays. -/
theorem result (st : Stages) (c : Dev nD) : W9 m ρ c (Proc.devRef .tc main_v64)
    = Spec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W9_arr m ρ c 2).trans (st.logSoftmax (V8 m ρ) c)).trans ?_
  dsimp only [V8]
  rw [W8_sum m ρ st c, W8_bias m ρ c, Gcn.rowVec_shapeCast]
  rfl

end Cert.KernelIdeal.Chain

end
-- ==== Proof.TileProduct1.lean ====
/-
  The first matrix product, assembled from its row blocks.

  The first pipelined region multiplies the node features `x` (100000 rows of 512) by the first weight matrix
  (512 by 16), 4000 rows at a time over 25 grid points: point `t` reads rows `4000 t … 4000 t + 3999` of `x` and the
  whole weight matrix, and writes the same rows of the output. An entry of a product depends on one row of the left
  factor and one column of the right one only, so the entry `(p, q)` of block `t`'s product is the entry
  `(4000 t + p, q)` of the product of the whole arrays. The 25 row blocks tile the 100000 rows and are never split
  along the 16 columns, so after the region the output array IS the whole product `x · W1`, whatever the region found
  in its buffers.
-/
import proofs.«167888_j10471130267748_1_alg».proof.Proof.Gen.KernelIdeal.Frame
import proofs.«167888_j10471130267748_1_alg».proof.Proof.LibMatProd
import Idealize.ShloMosaic.Lib.Pipeline.Value
import Idealize.ShloMosaic.Lib.ValueIdx

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offset of an access to a whole block, as a constant function. -/
theorem zeroOffset : (![0, 0] : Fin 2 → Nat) = fun _ => 0 := funext fun a => by fin_cases a <;> rfl

/-- Two products whose factors agree pairwise are equal. -/
theorem mul_eq_mul_of_eq {α : Type} [Mul α] {a a' b b' : α} (ha : a = a') (hb : b = b') : a * b = a' * b' := by
  rw [ha, hb]

/-! ## One block's product, entry by entry -/

/-- The product of a 4000-row block with the weights at the entry `(p, q)`: the sum over `k` of the block's
    `(p, k)` times the weights' `(k, q)`. Narrowing both factors' format first is the identity on these numbers, and the
    accumulator starts at zero. -/
theorem blockProduct1_apply (x0 : Vec Ideal S4000x512 .f32) (x1 : Vec Ideal S512x16 .f32) (p : Fin 4000) (q : Fin 16) :
    k0_pay1 (F := Ideal) x0 x1 (ix2 p q) = ∑ k : Fin 512, x0 (ix2 p k) * x1 (ix2 k q) := by
  unfold k0_pay1
  exact MatProd.matmul_zero_at dot_S4000x512_S512x16_S4000x16_1_0_0_1_n_n rfl none _ _ (ix2 p q) p q rfl

/-! ## Where each block sits -/

/-- The block index maps over the 25 grid points: at point `t` the row block of `x` and the output's row block are
    both block `t`, neither is split along its columns, and the weights are always their one whole block. -/
theorem blockIndex1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What a point writes back -/

/-- What point `t` writes back is block `t` of the whole product. The entry `(p, q)` of the block's product sums over
    row `p` of `x`'s block `t`, which is row `4000 t + p` of `x`, and column `q` of the weights' one block, which is
    column `q` of the weights; the output's block `t` puts its `(p, q)` at `(4000 t + p, q)`, and there the whole
    product is that same sum, term by term. -/
theorem flushed1_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (MatProd.matProd (φ₁ := .f32) (φ₂ := .f32) (V c main_arg0) (V c main_arg2)) := by
  show (cfg0.win 2).cut (grid0.coords t) ((dat0 (F := Ideal) V c).after 2 t) = _
  rw [after0_2]
  unfold out0_2
  rw [View.canon_unit_zero zeroOffset]
  simp only [View.ld_unit_zero (S := S4000x512) zeroOffset, View.ld_unit_zero (S := S512x16) zeroOffset]
  obtain ⟨e0, e1, e2, e3, e4, e5⟩ := blockIndex1 t
  funext j
  obtain ⟨p, q, rfl⟩ : ∃ (p : Fin 4000) (q : Fin 16), j = ix2 p q := ⟨j 0, j 1, eq_ix2 j⟩
  show k0_pay1 (F := Ideal) (iblk0 V c 0 t) (iblk0 V c 1 t) (ix2 p q)
      = MatProd.matProd (φ₁ := .f32) (φ₂ := .f32) (V c main_arg0) (V c main_arg2) (((cfg0.win 2).blk t).view.emb (ix2 p q))
  rw [blockProduct1_apply]
  unfold MatProd.matProd
  refine Finset.sum_congr rfl fun k _ => ?_
  -- the left factor: row `p` of block `t` of `x` is the row of `x` the output entry sits in
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  -- the right factor: the weights' block is the weights, and the output's columns are not shifted
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  exact mul_eq_mul_of_eq (congrArg (V c main_arg0) h0) (congrArg (V c main_arg2) h1)

/-! ## The blocks cover the array -/

/-- An index of the product array is in point `t`'s block iff each coordinate is in the block's range on its axis. -/
theorem mem_block1 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v33).slice (win0_2.rect t)).set ↔ _
  rw [View.set_slice_whole, Rect.mem_set_unit]
  exact Iff.rfl

/-- Every entry of the product array lies in the block of the point its row falls in: row `r` is in block `r / 4000`,
    and a block holds all 16 columns. -/
theorem cover1 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨e0, e1, e2, e3, e4, e5⟩ := blockIndex1 t
  refine ⟨t, flush0_2 t, ?_⟩
  rw [mem_block1]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-! ## The whole array -/

/-- After the first pipelined product the output array is the matrix product of the two arrays the region found: every
    point writes its block of that one array, and the blocks cover it. -/
theorem product1 (V : (c : Dev nD) → (b : Ref sig .tc) → Buf (Elt Ideal) ((c : Thread nD τ).loc b)) (c : Dev nD) :
    (dat0 (F := Ideal) V c).arrAt 2 cfg0.N = MatProd.matProd (φ₁ := .f32) (φ₂ := .f32) (V c main_arg0) (V c main_arg2) :=
  (dat0 (F := Ideal) V c).arrAt_eq_of_cover 2 _ (fun t _ => flushed1_eq V c t) cover1

end Cert.KernelIdeal.Tiles

end
-- ==== Proof.TileProduct2.lean ====
/-
  The second matrix product, assembled from its row blocks.

  The third pipelined region multiplies the hidden layer (100000 rows of 16) by the second weight matrix (16 by 40),
  10000 rows at a time over 10 grid points: point `t` reads rows `10000 t … 10000 t + 9999` of the hidden layer and the
  whole weight matrix, and writes the same rows of the output. As for the first product, an entry of a product depends
  on one row of the left factor and one column of the right one only, so block `t`'s product at `(p, q)` is the whole
  product at `(10000 t + p, q)`; the 10 row blocks tile the 100000 rows and hold all 40 columns, so after the region the
  output array IS the whole product, whatever the region found in its buffers.
-/
import proofs.«167888_j10471130267748_1_alg».proof.Proof.TileProduct1

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## One block's product, entry by entry -/

/-- The product of a 10000-row block with the weights at the entry `(p, q)`: the sum over `k` of the block's
    `(p, k)` times the weights' `(k, q)`. The block is first recast to its own shape, which changes nothing; narrowing
    both factors' format is the identity on these numbers; and the accumulator starts at zero. -/
theorem blockProduct2_apply (x0 : Vec Ideal S10000x16 .f32) (x1 : Vec Ideal S16x40 .f32) (p : Fin 10000) (q : Fin 40) :
    k2_pay1 (F := Ideal) x0 x1 (ix2 p q) = ∑ k : Fin 16, x0 (ix2 p k) * x1 (ix2 k q) := by
  unfold k2_pay1
  rw [shapeCast_self]
  exact MatProd.matmul_zero_at dot_S10000x16_S16x40_S10000x40_1_0_0_1_n_n rfl none _ _ (ix2 p q) p q rfl

/-! ## Where each block sits -/

/-- The block index maps over the 10 grid points: at point `t` the hidden layer's row block and the output's row block
    are both block `t`, neither is split along its columns, and the weights are always their one whole block. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## What a point writes back -/

/-- What point `t` writes back is block `t` of the whole product. The entry `(p, q)` of the block's product sums over
    row `p` of the hidden layer's block `t`, which is row `10000 t + p` of the hidden layer, and column `q` of the
    weights' one block, which is column `q` of the weights; the output's block `t` puts its `(p, q)` at
    `(10000 t + p, q)`, and there the whole product is that same sum, term by term. -/
theorem flushed2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (MatProd.matProd (φ₁ := .f32) (φ₂ := .f32) (V c main_v48) (V c main_arg4)) := by
  show (cfg2.win 2).cut (grid2.coords t) ((dat2 (F := Ideal) V c).after 2 t) = _
  rw [after2_2]
  unfold out2_2
  rw [View.canon_unit_zero zeroOffset]
  simp only [View.ld_unit_zero (S := S10000x16) zeroOffset, View.ld_unit_zero (S := S16x40) zeroOffset]
  obtain ⟨e0, e1, e2, e3, e4, e5⟩ := blockIndex2 t
  funext j
  obtain ⟨p, q, rfl⟩ : ∃ (p : Fin 10000) (q : Fin 40), j = ix2 p q := ⟨j 0, j 1, eq_ix2 j⟩
  show k2_pay1 (F := Ideal) (iblk2 V c 0 t) (iblk2 V c 1 t) (ix2 p q)
      = MatProd.matProd (φ₁ := .f32) (φ₂ := .f32) (V c main_v48) (V c main_arg4) (((cfg2.win 2).blk t).view.emb (ix2 p q))
  rw [blockProduct2_apply]
  unfold MatProd.matProd
  refine Finset.sum_congr rfl fun k _ => ?_
  -- the left factor: row `p` of block `t` of the hidden layer is the row the output entry sits in
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 16 + 1 * k.val = k.val; omega
  -- the right factor: the weights' block is the weights, and the output's columns are not shifted
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 16 + 1 * k.val = k.val; omega
    | ⟨1, _⟩ => show win2_1.index t (1 : Fin 2) * 40 + 1 * q.val = win2_2.index t (1 : Fin 2) * 40 + 1 * q.val; omega
  exact mul_eq_mul_of_eq (congrArg (V c main_v48) h0) (congrArg (V c main_arg4) h1)

/-! ## The blocks cover the array -/

/-- An index of the product array is in point `t`'s block iff each coordinate is in the block's range on its axis. -/
theorem mem_block2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v49).slice (win2_2.rect t)).set ↔ _
  rw [View.set_slice_whole, Rect.mem_set_unit]
  exact Iff.rfl

/-- Every entry of the product array lies in the block of the point its row falls in: row `r` is in block
    `r / 10000`, and a block holds all 40 columns. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := blockIndex2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-! ## The whole array -/

/-- After the second pipelined product the output array is the matrix product of the two arrays the region found:
    every point writes its block of that one array, and the blocks cover it. -/
theorem product2 (V : (c : Dev nD) → (b : Ref sig .tc) → Buf (Elt Ideal) ((c : Thread nD τ).loc b)) (c : Dev nD) :
    (dat2 (F := Ideal) V c).arrAt 2 cfg2.N = MatProd.matProd (φ₁ := .f32) (φ₂ := .f32) (V c main_v48) (V c main_arg4) :=
  (dat2 (F := Ideal) V c).arrAt_eq_of_cover 2 _ (fun t _ => flushed2_eq V c t) cover2

end Cert.KernelIdeal.Tiles

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibTileRows.lean ====
/-
  Two row-wise maps of a bias-shifted matrix, as a kernel body spells them, read at an index.

  A body receives a block `a` of `T` rows of width `n` and a one-row array `br` of the same width.

    * `relu`: the row is spread over the `T` rows, added, and compared with a splat of the zero word. At `(p, k)` this is
      `max (a (p, k) + br (0, k)) 0`.
    * `log_softmax`: with `z k = a (p, k) + br (0, k)`, the row maximum `μ` is reduced from the low word, kept as a
      column and spread back; `z - μ` is exponentiated and summed along the row (the sum's starting word is the number
      zero, so it adds nothing), the logarithm of that column is spread back and subtracted. At `(p, q)` this is
      `(z q - μ) - log (∑ k, exp (z k - μ))`.

  In both, the entry at `(p, ·)` reads row `p` of `a` only (and the whole of `br`).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167888_j10471130267748_1_alg».proof.Proof.LibRowReduce
import proofs.«167888_j10471130267748_1_alg».proof.Proof.LibColumns
import proofs.«167888_j10471130267748_1_alg».proof.Proof.LibGraphConvLayers
import proofs.«167888_j10471130267748_1_alg».proof.Proof.LibRowVec

noncomputable section

namespace TileRows

open Idealize.ShloMosaic Idealize.ShloMosaic.ValueIdx

/-- The bias-shifted block at an index: the block's entry plus the one row's entry in the same column. -/
theorem biased_apply {T n : ℕ} (a : FVec Ideal ⟨2, ![T, n]⟩ .f32) (br : FVec Ideal ⟨2, ![1, n]⟩ .f32)
    (ha : (⟨2, ![T, n]⟩ : Shape).ShapeCasts ⟨2, ![T, n]⟩) (hb : (⟨2, ![1, n]⟩ : Shape).ShapeCasts ⟨2, ![1, n]⟩)
    (hs : (⟨2, ![1, n]⟩ : Shape).Broadcasts ⟨2, ![T, n]⟩) (p : Fin T) (k : Fin n) :
    addf (shapeCast ⟨2, ![T, n]⟩ a ha) (broadcastTo ⟨2, ![T, n]⟩ (shapeCast ⟨2, ![1, n]⟩ br hb) hs) (ix2 p k)
      = GraphConvLayers.biasedRow a (Gcn.rowVec br) p k := by
  rw [shapeCast_self, shapeCast_self, addf_apply, broadcastTo_1b_ab_apply]
  rfl

/-- The `relu` body at `(p, k)`. -/
theorem biasRelu_body {T n : ℕ} (a : FVec Ideal ⟨2, ![T, n]⟩ .f32) (br : FVec Ideal ⟨2, ![1, n]⟩ .f32)
    (ha : (⟨2, ![T, n]⟩ : Shape).ShapeCasts ⟨2, ![T, n]⟩) (hb : (⟨2, ![1, n]⟩ : Shape).ShapeCasts ⟨2, ![1, n]⟩)
    (hs : (⟨2, ![1, n]⟩ : Shape).Broadcasts ⟨2, ![T, n]⟩) (p : Fin T) (k : Fin n) :
    maximumf (addf (shapeCast ⟨2, ![T, n]⟩ a ha) (broadcastTo ⟨2, ![T, n]⟩ (shapeCast ⟨2, ![1, n]⟩ br hb) hs))
        (broadcast ⟨2, ![T, n]⟩ (Scalar.ofBits (F := Ideal) .f32 0x00000000#32)) (ix2 p k)
      = GraphConvLayers.biasRelu a (Gcn.rowVec br) (ix2 p k) := by
  rw [maximumf_apply, biased_apply, broadcast_apply]
  rfl

/-- The `log_softmax` body at `(p, q)`. -/
theorem biasLogSoftmax_body {T n : ℕ} (a : FVec Ideal ⟨2, ![T, n]⟩ .f32) (br : FVec Ideal ⟨2, ![1, n]⟩ .f32)
    (ha : (⟨2, ![T, n]⟩ : Shape).ShapeCasts ⟨2, ![T, n]⟩) (hb : (⟨2, ![1, n]⟩ : Shape).ShapeCasts ⟨2, ![1, n]⟩)
    (hs : (⟨2, ![1, n]⟩ : Shape).Broadcasts ⟨2, ![T, n]⟩)
    (hr : (⟨2, ![T, n]⟩ : Shape).Reduces [1] ⟨1, ![T]⟩)
    (hc : (⟨1, ![T]⟩ : Shape).ShapeCasts ⟨2, ![T, 1]⟩)
    (hw : (⟨2, ![T, 1]⟩ : Shape).Broadcasts ⟨2, ![T, n]⟩)
    (hφ : FKind.Formats .f32)
    (hmax : (0xFF800000#32 : BitVec FTy.f32.bits) = FKind.maximumf.neutral .f32 hφ)
    (hadd : (0x00000000#32 : BitVec FTy.f32.bits) = FKind.add.neutral .f32 hφ)
    (p : Fin T) (q : Fin n) :
    let z : FVec Ideal ⟨2, ![T, n]⟩ .f32 :=
      addf (shapeCast ⟨2, ![T, n]⟩ a ha) (broadcastTo ⟨2, ![T, n]⟩ (shapeCast ⟨2, ![1, n]⟩ br hb) hs)
    let sh : FVec Ideal ⟨2, ![T, n]⟩ .f32 :=
      subf z (broadcastTo ⟨2, ![T, n]⟩ (shapeCast ⟨2, ![T, 1]⟩
        (multiReduction (F := Ideal) .maximumf [1] ⟨1, ![T]⟩ z 0xFF800000#32 hr hφ hmax) hc) hw)
    subf sh (broadcastTo ⟨2, ![T, n]⟩ (log (shapeCast ⟨2, ![T, 1]⟩
        (multiReduction (F := Ideal) .add [1] ⟨1, ![T]⟩ (exp sh) 0x00000000#32 hr hφ hadd) hc)) hw) (ix2 p q)
      = GraphConvLayers.biasLogSoftmax a (Gcn.rowVec br) (ix2 p q) := by
  intro z sh
  have hz : ∀ k : Fin n, z (ix2 p k) = GraphConvLayers.biasedRow a (Gcn.rowVec br) p k := fun k =>
    biased_apply a br ha hb hs p k
  have hzrow : (fun k => z (ix2 p k)) = GraphConvLayers.biasedRow a (Gcn.rowVec br) p := funext hz
  have hsh : ∀ k : Fin n, sh (ix2 p k)
      = GraphConvLayers.biasedRow a (Gcn.rowVec br) p k - GraphConvLayers.rowMax (GraphConvLayers.biasedRow a (Gcn.rowVec br) p) :=
    fun k => by
      show z (ix2 p k) - _ = _
      rw [broadcastTo_a1_ab_apply, RowReduce.shapeCast_a_a1_apply, RowReduce.multiReduction_maximumf_row, hzrow, hz]
      rfl
  rw [GraphConvLayers.biasLogSoftmax_apply]
  show sh (ix2 p q) - _ = _
  rw [broadcastTo_a1_ab_apply]
  show sh (ix2 p q) - Ideal.log (shapeCast ⟨2, ![T, 1]⟩ _ hc (ix2 p (0 : Fin 1))) = _
  rw [RowReduce.shapeCast_a_a1_apply, RowReduce.multiReduction_add_row, hsh]
  unfold GraphConvLayers.rowLogSoftmax
  refine congrArg (fun t => (GraphConvLayers.biasedRow a (Gcn.rowVec br) p q
    - GraphConvLayers.rowMax (GraphConvLayers.biasedRow a (Gcn.rowVec br) p)) - Ideal.log t) ?_
  exact Finset.sum_congr rfl fun k _ => congrArg Ideal.exp (hsh k)

/-- The tile of `relu (a + b)` is `relu (a + b)` of the tile: if row `p` of a block is row `r` of the array at column `k`,
    and the two bias rows agree there, the two results agree at `(p, k)` and `(r, k)`. -/
theorem biasRelu_tile {M T n : ℕ} (A : FVec Ideal ⟨2, ![M, n]⟩ .f32) (B : FVec Ideal ⟨2, ![1, n]⟩ .f32)
    (x0 : FVec Ideal ⟨2, ![T, n]⟩ .f32) (x1 : FVec Ideal ⟨2, ![1, n]⟩ .f32) (p : Fin T) (r : Fin M) (k : Fin n)
    (h0 : x0 (ix2 p k) = A (ix2 r k)) (h1 : x1 (ix2 (0 : Fin 1) k) = B (ix2 (0 : Fin 1) k)) :
    GraphConvLayers.biasRelu x0 (Gcn.rowVec x1) (ix2 p k) = GraphConvLayers.biasRelu A (Gcn.rowVec B) (ix2 r k) := by
  rw [GraphConvLayers.biasRelu_apply, GraphConvLayers.biasRelu_apply, Gcn.rowVec_apply, Gcn.rowVec_apply, h0, h1]

/-- The tile of `log_softmax (a + b)` is `log_softmax (a + b)` of the tile: if row `p` of a block is row `r` of the
    array, and the two bias rows agree, the two results agree along the whole row. -/
theorem biasLogSoftmax_tile {M T n : ℕ} (A : FVec Ideal ⟨2, ![M, n]⟩ .f32) (B : FVec Ideal ⟨2, ![1, n]⟩ .f32)
    (x0 : FVec Ideal ⟨2, ![T, n]⟩ .f32) (x1 : FVec Ideal ⟨2, ![1, n]⟩ .f32) (p : Fin T) (r : Fin M)
    (h0 : ∀ k : Fin n, x0 (ix2 p k) = A (ix2 r k)) (h1 : ∀ k : Fin n, x1 (ix2 (0 : Fin 1) k) = B (ix2 (0 : Fin 1) k))
    (q : Fin n) :
    GraphConvLayers.biasLogSoftmax x0 (Gcn.rowVec x1) (ix2 p q) = GraphConvLayers.biasLogSoftmax A (Gcn.rowVec B) (ix2 r q) := by
  rw [GraphConvLayers.biasLogSoftmax_apply, GraphConvLayers.biasLogSoftmax_apply]
  have hrow : GraphConvLayers.biasedRow x0 (Gcn.rowVec x1) p = GraphConvLayers.biasedRow A (Gcn.rowVec B) r :=
    funext fun k => by
      show x0 (ix2 p k) + x1 (ix2 (0 : Fin 1) k) = A (ix2 r k) + B (ix2 (0 : Fin 1) k)
      rw [h0, h1]
  rw [hrow]

end TileRows

end
-- ==== Proof.TileBiasRelu.lean ====
/-
  The bias-and-relu stage over the whole array.

  The stage walks the `[100000, 16]` array in ten blocks of `10000` rows; at each block it reads the block and the
  one-row bias and writes back `max (block + bias) 0`. An entry of the result at row `p` of a block reads row `p` of
  that block only, and the blocks of the input and of the output sit at the same rows of their arrays, so the ten
  blocks written back are the ten blocks of ONE function of the two whole arrays: `relu (a + b)` with the bias read
  along its one row. The output's blocks tile the array, so after the stage the array holds that function.
-/
import proofs.«167888_j10471130267748_1_alg».proof.Proof.Gen.KernelIdeal.Frame
import proofs.«167888_j10471130267748_1_alg».proof.Proof.LibTileRows

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offsets of a whole-block access, as a constant function. -/
theorem biasRelu_hz : (![0, 0] : Fin 2 → Nat) = fun _ => 0 := funext fun a => by fin_cases a <;> rfl

/-- The body's result at `(p, k)`: `relu` of the block's entry plus the bias entry of column `k`. -/
theorem biasRelu_pay (x0 : Vec Ideal S10000x16 .f32) (x1 : Vec Ideal S1x16 .f32) (p : Fin 10000) (k : Fin 16) :
    k1_pay1 (F := Ideal) x0 x1 (ix2 p k) = GraphConvLayers.biasRelu x0 (Gcn.rowVec x1) (ix2 p k) := by
  unfold k1_pay1
  exact TileRows.biasRelu_body x0 x1 _ _ _ p k

/-- The block indices over the ten points: the input and the output blocks are block `t` of the rows and the only
    block of the columns; the bias block is the whole row. -/
theorem biasRelu_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of `relu (a + b)` of the whole arrays. -/
theorem biasRelu_flushed (c : Dev nD) (t : Fin cfg1.N) :
    (Gen.dat1 (F := Ideal) V c).flushed 2 t
      = ((cfg1.win 2).blk t).view.read (Elt Ideal) (GraphConvLayers.biasRelu (V c main_v46) (Gcn.rowVec (V c main_v47))) := by
  show (cfg1.win 2).cut (grid1.coords t) ((Gen.dat1 (F := Ideal) V c).after 2 t) = _
  rw [Gen.after1_2]
  unfold Gen.out1_2
  rw [View.canon_unit_zero biasRelu_hz]
  simp only [View.ld_unit_zero (S := S10000x16) biasRelu_hz, View.ld_unit_zero (S := S1x16) biasRelu_hz]
  obtain ⟨e0, e1, e2, e3, e4, e5⟩ := biasRelu_idx t
  funext j
  obtain ⟨p, k, rfl⟩ : ∃ (p : Fin 10000) (k : Fin 16), j = ix2 p k := ⟨j 0, j 1, eq_ix2 j⟩
  refine (biasRelu_pay _ _ p k).trans ?_
  rw [GraphConvLayers.biasRelu_apply]
  have h0 : ((cfg1.win 0).blk t).view.emb (ix2 p k) = ((cfg1.win 2).blk t).view.emb (ix2 p k) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * k.val = win1_2.index t (1 : Fin 2) * 16 + 1 * k.val; omega
  have h1 : ((cfg1.win 1).blk t).view.emb (ix2 (0 : Fin 1) k) = ix2 (0 : Fin 1) ((((cfg1.win 2).blk t).view.emb (ix2 p k)) 1) := by
    funext a; apply Fin.ext
    match a with
    | ⟨0, _⟩ => show win1_1.index t (0 : Fin 2) * 1 + 1 * 0 = 0; omega
    | ⟨1, _⟩ => show win1_1.index t (1 : Fin 2) * 16 + 1 * k.val = win1_2.index t (1 : Fin 2) * 16 + 1 * k.val; omega
  have key : ∀ (A : FVec Ideal S100000x16 .f32) (B : FVec Ideal S1x16 .f32),
      max (A (((cfg1.win 0).blk t).view.emb (ix2 p k)) + B (((cfg1.win 1).blk t).view.emb (ix2 (0 : Fin 1) k))) GraphConvLayers.zeroWord
        = max (A (((cfg1.win 2).blk t).view.emb (ix2 p k))
            + B (ix2 (0 : Fin 1) ((((cfg1.win 2).blk t).view.emb (ix2 p k)) 1))) GraphConvLayers.zeroWord := by
    intro A B
    exact congrArg₂ (fun x y => max (A x + B y) GraphConvLayers.zeroWord) h0 h1
  exact key (V c main_v46) (V c main_v47)

/-- An index of the array is in point `t`'s block iff each coordinate is in the block's range on its axis. -/
theorem biasRelu_mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v48).slice (win1_2.rect t)).set ↔ _
  rw [View.set_slice_whole, Rect.mem_set_unit]
  exact Iff.rfl

/-- Every index of the array is in some point's block: row `r` is in block `r / 10000`. -/
theorem biasRelu_cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : (i 0).val / 10000 < cfg1.N := by
    show (i 0).val / 10000 < grid1.N
    rw [Gen.N_1]; omega
  refine ⟨⟨(i 0).val / 10000, hN⟩, Gen.flush1_2 _, ?_⟩
  rw [biasRelu_mem_blk]
  obtain ⟨e0, e1, e2, e3, e4, e5⟩ := biasRelu_idx ⟨(i 0).val / 10000, hN⟩
  have e4' : win1_2.index ⟨(i 0).val / 10000, hN⟩ (0 : Fin 2) = (i 0).val / 10000 := e4
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 16 ≤ (i 1).val ∧ (i 1).val < win1_2.index ⟨(i 0).val / 10000, hN⟩ (1 : Fin 2) * 16 + 16; omega

/-- After the stage the output array is `relu (a + b)` of the two input arrays as the stage found them. -/
theorem biasRelu (c : Dev nD) :
    (Gen.dat1 (F := Ideal) V c).arrAt 2 cfg1.N = GraphConvLayers.biasRelu (V c main_v46) (Gcn.rowVec (V c main_v47)) :=
  (Gen.dat1 (F := Ideal) V c).arrAt_eq_of_cover 2 (GraphConvLayers.biasRelu (V c main_v46) (Gcn.rowVec (V c main_v47)))
    (fun t _ => biasRelu_flushed V c t) biasRelu_cover

end Cert.KernelIdeal.Tiles

end
-- ==== Proof.TileLogSoftmax.lean ====
/-
  The bias-and-log-softmax stage over the whole array.

  The stage walks the `[100000, 40]` array in ten blocks of `10000` rows; at each block it reads the block and the
  one-row bias and writes back, row by row, `log_softmax` of the row plus the bias. The result at row `p` of a block reads
  row `p` of that block only (its maximum, its sum of exponentials), and a block holds whole rows — the columns are never
  split —, so the ten blocks written back are the ten blocks of ONE function of the two whole arrays:
  `log_softmax (a + b)` along each row, with the bias read along its one row. The output's blocks tile the array, so
  after the stage the array holds that function.
-/
import proofs.«167888_j10471130267748_1_alg».proof.Proof.Gen.KernelIdeal.Frame
import proofs.«167888_j10471130267748_1_alg».proof.Proof.LibTileRows

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offsets of a whole-block access, as a constant function. -/
theorem logSoftmax_hz : (![0, 0] : Fin 2 → Nat) = fun _ => 0 := funext fun a => by fin_cases a <;> rfl

/-- The body's result at `(p, q)`: `log_softmax` of row `p` of the block plus the bias, at position `q`. -/
theorem logSoftmax_pay (x0 : Vec Ideal S10000x40 .f32) (x1 : Vec Ideal S1x40 .f32) (p : Fin 10000) (q : Fin 40) :
    k3_pay1 (F := Ideal) x0 x1 (ix2 p q) = GraphConvLayers.biasLogSoftmax x0 (Gcn.rowVec x1) (ix2 p q) := by
  unfold k3_pay1
  exact TileRows.biasLogSoftmax_body x0 x1 _ _ _ _ _ _ _ _ _ p q

/-- The block indices over the ten points: the input and the output blocks are block `t` of the rows and the only
    block of the columns; the bias block is the whole row. -/
theorem logSoftmax_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of `log_softmax (a + b)` of the whole arrays. -/
theorem logSoftmax_flushed (c : Dev nD) (t : Fin cfg3.N) :
    (Gen.dat3 (F := Ideal) V c).flushed 2 t
      = ((cfg3.win 2).blk t).view.read (Elt Ideal) (GraphConvLayers.biasLogSoftmax (V c main_v62) (Gcn.rowVec (V c main_v63))) := by
  show (cfg3.win 2).cut (grid3.coords t) ((Gen.dat3 (F := Ideal) V c).after 2 t) = _
  rw [Gen.after3_2]
  unfold Gen.out3_2
  rw [View.canon_unit_zero logSoftmax_hz]
  simp only [View.ld_unit_zero (S := S10000x40) logSoftmax_hz, View.ld_unit_zero (S := S1x40) logSoftmax_hz]
  obtain ⟨e0, e1, e2, e3, e4, e5⟩ := logSoftmax_idx t
  funext j
  obtain ⟨p, q, rfl⟩ : ∃ (p : Fin 10000) (q : Fin 40), j = ix2 p q := ⟨j 0, j 1, eq_ix2 j⟩
  refine (logSoftmax_pay _ _ p q).trans ?_
  -- row `p` of block `t` is row `r` of the array
  have hr : ∀ k : Fin 40, ((cfg3.win 0).blk t).view.emb (ix2 p k) = ix2 ((((cfg3.win 2).blk t).view.emb (ix2 p q)) 0) k := fun k => by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 40 + 1 * k.val = k.val; omega
  -- the bias block is the whole bias row
  have hb : ∀ k : Fin 40, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 40 + 1 * k.val = k.val; omega
  -- the columns are not split
  have hq : ix2 ((((cfg3.win 2).blk t).view.emb (ix2 p q)) 0) q = ((cfg3.win 2).blk t).view.emb (ix2 p q) := by
    funext a; apply Fin.ext
    match a with
    | ⟨0, _⟩ => rfl
    | ⟨1, _⟩ => show q.val = win3_2.index t (1 : Fin 2) * 40 + 1 * q.val; omega
  have key : ∀ (A : FVec Ideal S100000x40 .f32) (B : FVec Ideal S1x40 .f32),
      GraphConvLayers.biasLogSoftmax (fun y => A (((cfg3.win 0).blk t).view.emb y))
          (Gcn.rowVec (fun y => B (((cfg3.win 1).blk t).view.emb y))) (ix2 p q)
        = GraphConvLayers.biasLogSoftmax A (Gcn.rowVec B) (((cfg3.win 2).blk t).view.emb (ix2 p q)) := by
    intro A B
    refine (TileRows.biasLogSoftmax_tile A B (fun y => A (((cfg3.win 0).blk t).view.emb y))
      (fun y => B (((cfg3.win 1).blk t).view.emb y)) p ((((cfg3.win 2).blk t).view.emb (ix2 p q)) 0)
      (fun k => congrArg A (hr k)) (fun k => congrArg B (hb k)) q).trans ?_
    exact congrArg (GraphConvLayers.biasLogSoftmax A (Gcn.rowVec B)) hq
  exact key (V c main_v62) (V c main_v63)

/-- An index of the array is in point `t`'s block iff each coordinate is in the block's range on its axis. -/
theorem logSoftmax_mem_blk (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v64).slice (win3_2.rect t)).set ↔ _
  rw [View.set_slice_whole, Rect.mem_set_unit]
  exact Iff.rfl

/-- Every index of the array is in some point's block: row `r` is in block `r / 10000`. -/
theorem logSoftmax_cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : (i 0).val / 10000 < cfg3.N := by
    show (i 0).val / 10000 < grid3.N
    rw [Gen.N_3]; omega
  refine ⟨⟨(i 0).val / 10000, hN⟩, Gen.flush3_2 _, ?_⟩
  rw [logSoftmax_mem_blk]
  obtain ⟨e0, e1, e2, e3, e4, e5⟩ := logSoftmax_idx ⟨(i 0).val / 10000, hN⟩
  have e4' : win3_2.index ⟨(i 0).val / 10000, hN⟩ (0 : Fin 2) = (i 0).val / 10000 := e4
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 40 ≤ (i 1).val ∧ (i 1).val < win3_2.index ⟨(i 0).val / 10000, hN⟩ (1 : Fin 2) * 40 + 40; omega

/-- After the stage the output array is `log_softmax (a + b)` of the two input arrays as the stage found them. -/
theorem logSoftmax (c : Dev nD) :
    (Gen.dat3 (F := Ideal) V c).arrAt 2 cfg3.N = GraphConvLayers.biasLogSoftmax (V c main_v62) (Gcn.rowVec (V c main_v63)) :=
  (Gen.dat3 (F := Ideal) V c).arrAt_eq_of_cover 2 (GraphConvLayers.biasLogSoftmax (V c main_v62) (Gcn.rowVec (V c main_v63)))
    (fun t _ => logSoftmax_flushed V c t) logSoftmax_cover

end Cert.KernelIdeal.Tiles

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.RefOps.lean ====
/-
  The reference network as a straight line of array operations.

  The program is 101 whole-array operations, each writing one array of its own and reading only arrays written before it
  or the seven arguments. In order: the edge list split into its source and target rows, each followed by the node
  numbers (the self loops); the edge weights followed by ones; the weighted in-degree (a scatter-add of the weights at the
  targets) and its inverse square root where positive; the normalised weight of every edge (two gathers of that array
  at the wrapped end points, times the weight); the feature product; the first neighbourhood sum (a gather at the
  sources, times the normalised weights spread along the rows, scatter-added at the targets); bias, maximum with zero
  and the second product; the second neighbourhood sum; bias, and the sixteen steps of the row-wise log-softmax.

  The three functions the program calls are written out where they are called, over the arrays each call names.
  `written` lists, operation by operation, the one array each operation writes.
-/
import proofs.«167888_j10471130267748_1_alg».proof.Proof.Gen.ReferenceIdeal
import proofs.«167888_j10471130267748_1_alg».proof.Proof.LibStretchRead
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 101 operations, in order. -/
abbrev ops : List (HloOp τ sig (Elt F)) :=
  [
    unary main_arg6 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    nullary main_v2 (iotaInDim S100000 32 0),
    binary main_v1 main_v2 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg6 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    nullary main_v6 (iotaInDim S100000 32 0),
    binary main_v5 main_v6 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg1 main_v8 main_v9 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S3300000x1 ![0] bcast_S3300000_S3300000x1_0 : (⟨S3300000, .i32⟩ : BufTy).Contents (Elt F) → (⟨S3300000x1, .i32⟩ : BufTy).Contents (Elt F)),
    ternary main_v10 main_v11 main_v9 main_v12 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) main_call0.v0 id,
    TRef.unary main_call0.v0 main_call0.v1 (broadcastInDim S100000 ![] bcast_S_S100000),
    TRef.ternary (TRef.of (T := ⟨S100000, .i1⟩) main_v14) (TRef.of (T := ⟨S100000, .f32⟩) main_v15) main_call0.v1 main_call0.v2 select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v9 main_v24 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v25 (broadcastInDim S3300000 ![] bcast_S_S3300000 : (⟨S_, .i32⟩ : BufTy).Contents (Elt F) → (⟨S3300000, .i32⟩ : BufTy).Contents (Elt F)),
    binary main_v7 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v27 (broadcastInDim S3300000 ![] bcast_S_S3300000 : (⟨S_, .i32⟩ : BufTy).Contents (Elt F) → (⟨S3300000, .i32⟩ : BufTy).Contents (Elt F)),
    binary main_v7 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v7 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    binary main_arg0 main_arg2 main_v33 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v33 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v41 (broadcastInDim S3300000x1 ![0] bcast_S3300000_S3300000x1_0 : (⟨S3300000, .f32⟩ : BufTy).Contents (Elt F) → (⟨S3300000x1, .f32⟩ : BufTy).Contents (Elt F)),
    unary main_v41 main_v42 (broadcastInDim S3300000x16 ![0, 1] bcast_S3300000x1_S3300000x16_0_1 : (⟨S3300000x1, .f32⟩ : BufTy).Contents (Elt F) → (⟨S3300000x16, .f32⟩ : BufTy).Contents (Elt F)),
    binary main_v40 main_v42 main_v43 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v44 (broadcastInDim S100000x16 ![] bcast_S_S100000x16 : (⟨S_, .f32⟩ : BufTy).Contents (Elt F) → (⟨S100000x16, .f32⟩ : BufTy).Contents (Elt F)),
    unary main_v7 main_v45 (broadcastInDim S3300000x1 ![0] bcast_S3300000_S3300000x1_0 : (⟨S3300000, .i32⟩ : BufTy).Contents (Elt F) → (⟨S3300000x1, .i32⟩ : BufTy).Contents (Elt F)),
    ternary main_v44 main_v45 main_v43 main_v46 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v47 (broadcastInDim S1x16 ![1] bcast_S16_S1x16_1 : (⟨S16, .f32⟩ : BufTy).Contents (Elt F) → (⟨S1x16, .f32⟩ : BufTy).Contents (Elt F)),
    unary main_v47 main_v48 (broadcastInDim S100000x16 ![0, 1] bcast_S1x16_S100000x16_0_1 : (⟨S1x16, .f32⟩ : BufTy).Contents (Elt F) → (⟨S100000x16, .f32⟩ : BufTy).Contents (Elt F)),
    binary main_v46 main_v48 main_v49 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (TRef.of (T := ⟨S100000x16, .f32⟩) main_v49) main_call1.v0 main_call1.v1 maximumf,
    binary main_v50 main_arg4 main_v51 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v3 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v3 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v3 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v51 main_v57 main_v58 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v32 main_v59 (broadcastInDim S3300000x1 ![0] bcast_S3300000_S3300000x1_0 : (⟨S3300000, .f32⟩ : BufTy).Contents (Elt F) → (⟨S3300000x1, .f32⟩ : BufTy).Contents (Elt F)),
    unary main_v59 main_v60 (broadcastInDim S3300000x40 ![0, 1] bcast_S3300000x1_S3300000x40_0_1 : (⟨S3300000x1, .f32⟩ : BufTy).Contents (Elt F) → (⟨S3300000x40, .f32⟩ : BufTy).Contents (Elt F)),
    binary main_v58 main_v60 main_v61 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v62 (broadcastInDim S100000x40 ![] bcast_S_S100000x40 : (⟨S_, .f32⟩ : BufTy).Contents (Elt F) → (⟨S100000x40, .f32⟩ : BufTy).Contents (Elt F)),
    unary main_v7 main_v63 (broadcastInDim S3300000x1 ![0] bcast_S3300000_S3300000x1_0 : (⟨S3300000, .i32⟩ : BufTy).Contents (Elt F) → (⟨S3300000x1, .i32⟩ : BufTy).Contents (Elt F)),
    ternary main_v62 main_v63 main_v61 main_v64 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v65 (broadcastInDim S1x40 ![1] bcast_S40_S1x40_1 : (⟨S40, .f32⟩ : BufTy).Contents (Elt F) → (⟨S1x40, .f32⟩ : BufTy).Contents (Elt F)),
    unary main_v65 main_v66 (broadcastInDim S100000x40 ![0, 1] bcast_S1x40_S100000x40_0_1 : (⟨S1x40, .f32⟩ : BufTy).Contents (Elt F) → (⟨S100000x40, .f32⟩ : BufTy).Contents (Elt F)),
    binary main_v64 main_v66 main_v67 (addf : (⟨S100000x40, .f32⟩ : BufTy).Contents (Elt F) → (⟨S100000x40, .f32⟩ : BufTy).Contents (Elt F) → (⟨S100000x40, .f32⟩ : BufTy).Contents (Elt F)),
    TRef.nullary main_call2.cst (constant S_ .f32 0xFF800000#32),
    TRef.binary (TRef.of (T := ⟨S100000x40, .f32⟩) main_v67) main_call2.cst main_call2.v0 (fun x v => Host.reduce FloatOps.maximumf x v reducesTo_S100000x40_S100000_d1 h_S_),
    TRef.nullary main_call2.cst_0 (constant S_ .f32 0xFF800000#32),
    TRef.unary main_call2.cst_0 main_call2.v1 (broadcastInDim S100000 ![] bcast_S_S100000),
    TRef.binary main_call2.v1 main_call2.v0 main_call2.v2 maximumf,
    TRef.unary main_call2.v2 main_call2.v3 (broadcastInDim S100000x1 ![0] bcast_S100000_S100000x1_0),
    TRef.unary main_call2.v3 main_call2.v4 (broadcastInDim S100000x40 ![0, 1] bcast_S100000x1_S100000x40_0_1),
    TRef.binary (TRef.of (T := ⟨S100000x40, .f32⟩) main_v67) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S100000x40_S100000_d1 h_S_),
    TRef.unary main_call2.v7 main_call2.v8 (broadcastInDim S100000x1 ![0] bcast_S100000_S100000x1_0),
    TRef.unary main_call2.v8 main_call2.v9 Host.log,
    TRef.unary main_call2.v9 main_call2.v10 (broadcastInDim S100000x40 ![0, 1] bcast_S100000x1_S100000x40_0_1),
    TRef.binary main_call2.v5 main_call2.v10 main_call2.v11 subf ]

/-- The array each operation writes, in the same order. -/
abbrev written : List (Ref sig .tc) :=
  [
    main_v0, main_v1, main_v2, main_v3, main_v4, main_v5, main_v6, main_v7,
    main_cst, main_v8, main_v9, main_cst_0, main_v10, main_v11, main_v12, main_cst_1,
    main_v13, main_v14, main_v15, main_cst_2, main_call0_v0, main_call0_v1, main_v16, main_c,
    main_v17, main_v18, main_c_3, main_v19, main_v20, main_v21, main_v22, main_v23,
    main_v24, main_c_4, main_v25, main_v26, main_c_5, main_v27, main_v28, main_v29,
    main_v30, main_v31, main_v32, main_v33, main_c_6, main_v34, main_v35, main_c_7,
    main_v36, main_v37, main_v38, main_v39, main_v40, main_v41, main_v42, main_v43,
    main_cst_8, main_v44, main_v45, main_v46, main_v47, main_v48, main_v49, main_call1_cst,
    main_call1_v0, main_v50, main_v51, main_c_9, main_v52, main_v53, main_c_10, main_v54,
    main_v55, main_v56, main_v57, main_v58, main_v59, main_v60, main_v61, main_cst_11,
    main_v62, main_v63, main_v64, main_v65, main_v66, main_v67, main_call2_cst, main_call2_v0,
    main_call2_cst_0, main_call2_v1, main_call2_v2, main_call2_v3, main_call2_v4, main_call2_v5, main_call2_v6, main_call2_cst_1,
    main_call2_v7, main_call2_v8, main_call2_v9, main_call2_v10, main_v68 ]

set_option maxRecDepth 100000 in
set_option maxHeartbeats 4000000 in
/-- The program is that line: its two halves and the three called functions unfold to the same chain of steps. -/
theorem main_eq (c : Dev nD) : main (F := F) c = seq ops := rfl

/-- No array of the program is local to a region. -/
theorem scopedRefs_eq : (Finset.univ.filter fun b : Ref sig .tc => b.isScoped) = ∅ := by decide
/-- The program has no semaphore, so none local to a region. -/
theorem scopedSems_eq : (Finset.univ.filter fun sm : SemLoc sig => sm.isScoped .tc) = ∅ := by decide

/-- Every operation touches arrays of the one core only. -/
theorem ops_sub : (ops : List (HloOp τ sig (Elt F))).Forall fun op => op.bufs ⊆ tcRefs τ sig :=
  ⟨
    unary_bufs_sub .., reshape_bufs_sub .., nullary_bufs_sub .., binary_bufs_sub .., unary_bufs_sub .., reshape_bufs_sub ..,
    nullary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩

/-- Every operation determines what it writes. -/
theorem ops_fresh : ∀ op ∈ (ops : List (HloOp τ sig (Elt F))), op.fresh = ∅ :=
  List.forall_iff_forall_mem.mp (show (ops : List (HloOp τ sig (Elt F))).Forall (fun op => op.fresh = ∅) from
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩)

/-- One more operation in front, writing exactly one more array. -/
theorem writesOnly_cons {op : HloOp τ sig (Elt F)} {r : Ref sig .tc} {l : List (HloOp τ sig (Elt F))} {W : List (Ref sig .tc)}
    (h : op.writes = {Proc.devRef (τ := τ) .tc r}) (t : WritesOnly l W) : WritesOnly (op :: l) (r :: W) :=
  List.Forall₂.cons (h ▸ Finset.Subset.refl _) t

set_option maxRecDepth 100000 in
/-- Operation by operation, `written` names the array written. -/
theorem ops_written : WritesOnly (ops : List (HloOp τ sig (Elt F))) written :=
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    writesOnly_cons rfl <|
    List.Forall₂.nil

end Cert.ReferenceIdeal.HandRun

end
-- ==== Proof.RefSpec.lean ====
/-
  A two-layer graph convolution as one function of its seven argument arrays.

  The graph has 100000 nodes and 3200000 weighted edges `(src e, dst e, w e)`; every node also gets a self loop of
  weight one, so there are 3300000 edges in all. With `deg n` the sum of the weights of the edges into `n` and
  `dinv n = deg n ^ (-1/2)` where `deg n > 0` (zero elsewhere), each edge carries the weight
  `norm e = dinv (src e) * w e * dinv (dst e)`, and the neighbourhood sum of a node array `h` is

      agg h n = ∑ over the edges e into n of h (src e) * norm e.

  The network is `log_softmax (agg (relu (agg (x · W1) + b1) · W2) + b2)` along each row. The edge list, the degrees, the
  edge weights and the two neighbourhood sums are kept exactly as the program spells them (slices, concatenations,
  gathers and scatter-adds of whole arrays): nothing in this file evaluates them.
-/
import proofs.«167888_j10471130267748_1_alg».proof.Proof.Gen.ReferenceIdeal
import proofs.«167888_j10471130267748_1_alg».proof.Proof.LibGraphConvLayers

noncomputable section

namespace Cert.ReferenceIdeal.Spec

open Cert.ReferenceIdeal Cert.ReferenceIdeal.Gen Idealize.ShloMosaic

/-- An array of 32-bit integers of shape `s`. -/
abbrev I32 (s : Shape) : Type := IVec s 32
/-- An array of numbers of shape `s`. -/
abbrev F32 (s : Shape) : Type := FVec Ideal s .f32

/-- Row `r` of the edge list followed by the node numbers `0 … 99999` (the self loops). -/
def ends (r : Fin 2 → ℕ) (hr : S2x3200000.Slices r S1x3200000) (ei : I32 S2x3200000) : I32 S3300000 :=
  concatenate S3300000 0 [⟨S3200000, shapeCast S3200000 (extractStridedSlice S1x3200000 r ei hr) shapeCasts_S1x3200000_S3200000⟩,
    ⟨S100000, iotaInDim S100000 32 0⟩] concatenates_S3200000_S100000_S3300000_d0

/-- The source node of every edge. -/
def src (ei : I32 S2x3200000) : I32 S3300000 := ends ![0, 0] slices_S2x3200000_S1x3200000_0_0 ei
/-- The target node of every edge. -/
def dst (ei : I32 S2x3200000) : I32 S3300000 := ends ![1, 0] slices_S2x3200000_S1x3200000_1_0 ei

/-- The weight of every edge: the given weights, then one for each self loop. -/
def weights (ew : F32 S3200000) : F32 S3300000 :=
  concatenate S3300000 0 [⟨S3200000, ew⟩,
    ⟨S100000, broadcastInDim S100000 ![] bcast_S_S100000 (constant (F := Ideal) S_ .f32 0x3F800000#32)⟩] concatenates_S3200000_S100000_S3300000_d0

/-- A list of node numbers as the one-column index array a gather or a scatter takes. -/
def asColumn (i : I32 S3300000) : I32 S3300000x1 := broadcastInDim S3300000x1 ![0] bcast_S3300000_S3300000x1_0 i

/-- A node number counted from the end when negative (`i + 100000` where `i < 0`). -/
def wrapped (i : I32 S3300000) : I32 S3300000 :=
  select (cmpi .slt i (broadcastInDim S3300000 ![] bcast_S_S3300000 (constantI S_ 32 0#32)))
    (addi i (broadcastInDim S3300000 ![] bcast_S_S3300000 (constantI S_ 32 100000#32))) i

/-- The weighted in-degree of every node. -/
def degree (ew : F32 S3200000) (ei : I32 S2x3200000) : F32 S100000 :=
  Host.scatterAdd scatter_S100000_S3300000x1_S3300000_n_0_0_1
    (broadcastInDim S100000 ![] bcast_S_S100000 (constant (F := Ideal) S_ .f32 0x00000000#32)) (asColumn (dst ei)) (weights ew)

/-- `deg ^ (-1/2)` where the degree is positive, zero elsewhere. -/
def invSqrtDegree (ew : F32 S3200000) (ei : I32 S2x3200000) : F32 S100000 :=
  select (cmpf .ogt (degree ew ei) (broadcastInDim S100000 ![] bcast_S_S100000 (constant (F := Ideal) S_ .f32 0x00000000#32)))
    (Host.rsqrt (degree ew ei))
    (broadcastInDim S100000 ![] bcast_S_S100000 (id (constant (F := Ideal) S_ .f32 0x00000000#32)))

/-- The normalised weight of every edge: `dinv (src e) * w e * dinv (dst e)`. -/
def norm (ew : F32 S3200000) (ei : I32 S2x3200000) : F32 S3300000 :=
  mulf (mulf (Host.gather gather_S100000_S3300000x1_S3300000_n_0_n_n_0_1_1 (invSqrtDegree ew ei) (asColumn (wrapped (src ei)))) (weights ew))
    (Host.gather gather_S100000_S3300000x1_S3300000_n_0_n_n_0_1_1 (invSqrtDegree ew ei) (asColumn (wrapped (dst ei))))

/-- The neighbourhood sum of a 16-column node array. -/
def agg16 (h : F32 S100000x16) (ew : F32 S3200000) (ei : I32 S2x3200000) : F32 S100000x16 :=
  Host.scatterAdd scatter_S100000x16_S3300000x1_S3300000x16_1_0_0_1
    (broadcastInDim S100000x16 ![] bcast_S_S100000x16 (constant (F := Ideal) S_ .f32 0x00000000#32)) (asColumn (dst ei))
    (mulf (Host.gather gather_S100000x16_S3300000x1_S3300000x16_1_0_n_n_0_1_116 h (asColumn (wrapped (src ei))))
      (broadcastInDim S3300000x16 ![0, 1] bcast_S3300000x1_S3300000x16_0_1
        (broadcastInDim S3300000x1 ![0] bcast_S3300000_S3300000x1_0 (norm ew ei))))

/-- The neighbourhood sum of a 40-column node array. -/
def agg40 (h : F32 S100000x40) (ew : F32 S3200000) (ei : I32 S2x3200000) : F32 S100000x40 :=
  Host.scatterAdd scatter_S100000x40_S3300000x1_S3300000x40_1_0_0_1
    (broadcastInDim S100000x40 ![] bcast_S_S100000x40 (constant (F := Ideal) S_ .f32 0x00000000#32)) (asColumn (dst ei))
    (mulf (Host.gather gather_S100000x40_S3300000x1_S3300000x40_1_0_n_n_0_1_140 h (asColumn (wrapped (src ei))))
      (broadcastInDim S3300000x40 ![0, 1] bcast_S3300000x1_S3300000x40_0_1
        (broadcastInDim S3300000x1 ![0] bcast_S3300000_S3300000x1_0 (norm ew ei))))

/-- The network: `log_softmax (agg (relu (agg (x · W1) + b1) · W2) + b2)`. -/
def network (x : F32 S100000x512) (ew : F32 S3200000) (w1 : F32 S512x16) (b1 : F32 S16) (w2 : F32 S16x40) (b2 : F32 S40)
    (ei : I32 S2x3200000) : F32 S100000x40 :=
  GraphConvLayers.biasLogSoftmax
    (agg40 (GraphConvLayers.hidden (agg16 (MatProd.matProd (φ₁ := .f32) (φ₂ := .f32) x w1) ew ei) b1 w2) ew ei) b2

end Cert.ReferenceIdeal.Spec

end
-- ==== Proof.LibTypedTransport.lean ====
/-
  A typed reference's transport of contents, there and back.

  A function called from a program names its arrays by typed references: a buffer together with the equation "this
  buffer's type is the value's type". Contents are moved into the buffer's own type along that equation when an operation
  writes them, and back along the same equation when a later operation reads them. The two moves cancel, whatever the
  equation's proof: so, reading a line of such operations, every value handed from one operation to the next arrives
  unchanged, and only the first reads and the last write keep a transport. (With this rule added to the one-pass reading
  of a line of operations, what is left to compare is the operations' own term.)
-/
import Idealize.ShloMosaic.Lib.StableHlo.Run

noncomputable section

namespace Idealize.ShloMosaic.StableHlo.TRef

variable {sig : RefSig} {Val : EltTy → Type} {T : BufTy}

/-- Contents moved to a buffer's own type and back along the same equation are themselves. -/
theorem ofBuf_toBuf (x : TRef sig T) (v : T.Contents Val) : x.ofBuf (x.toBuf v) = v := by
  unfold ofBuf toBuf
  simp

/-- Contents of the buffer's own type moved to the value's type and back are themselves. -/
theorem toBuf_ofBuf (x : TRef sig T) (v : x.ref.ty.Contents Val) : x.toBuf (x.ofBuf v) = v := by
  unfold ofBuf toBuf
  simp

end Idealize.ShloMosaic.StableHlo.TRef

end
-- ==== Proof.RefRead.lean ====
/-
  What the reference network's result array holds after its 101 operations: the network function of the seven arguments.

  Every array is written by exactly one operation and read only by later ones, so "the contents of array `b` after the
  whole line" is a value of its own. The line is cut into ten short stretches, each computing one named quantity from
  quantities computed before it:

    1. the source and target node of every edge (from the edge list);      6. the feature product `x · W1`;
    2. the weight of every edge (from the given weights);                  7. its neighbourhood sum;
    3. the weighted in-degree (from the targets and the weights);          8. the hidden layer `relu (· + b1) · W2`;
    4. its inverse square root where positive;                             9. its neighbourhood sum;
    5. the normalised weight of every edge;                               10. `log_softmax (· + b2)` along each row.

  A stretch is first read from ANY starting contents `W`: its result is a function of what `W` holds in the arrays
  the stretch reads (stretches 6, 8 and 10 are folded to the matrix product, the hidden layer and the row-wise
  log-softmax by their entry-wise laws; the others are the spec's own spelling). Then, for the whole line, the array
  a stretch writes is read off that stretch alone, run from what the operations before it leave; those contents
  are, array by array, what the whole line leaves there (nothing later writes them), or the argument itself.
-/
import proofs.«167888_j10471130267748_1_alg».proof.Proof.RefOps
import proofs.«167888_j10471130267748_1_alg».proof.Proof.RefSpec
import proofs.«167888_j10471130267748_1_alg».proof.Proof.LibJoinedPair
import proofs.«167888_j10471130267748_1_alg».proof.Proof.LibTypedTransport

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The ten stretches -/

section Stretches

variable {F : FTy → Type} [FloatOps F]

/-- Operations 1 … 8: the two end-point lists. -/
abbrev st1 : List (HloOp τ sig (Elt F)) :=
  [
    unary main_arg6 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    nullary main_v2 (iotaInDim S100000 32 0),
    binary main_v1 main_v2 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg6 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    nullary main_v6 (iotaInDim S100000 32 0),
    binary main_v5 main_v6 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]
theorem st1_eq : ((ops : List (HloOp τ sig (Elt F))).drop 0).take 8 = st1 := rfl

/-- Operations 9 … 11: the edge weights. -/
abbrev st2 : List (HloOp τ sig (Elt F)) :=
  [
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg1 main_v8 main_v9 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)) ]
theorem st2_eq : ((ops : List (HloOp τ sig (Elt F))).drop 8).take 3 = st2 := rfl

/-- Operations 12 … 15: the weighted in-degree. -/
abbrev st3 : List (HloOp τ sig (Elt F)) :=
  [
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S3300000x1 ![0] bcast_S3300000_S3300000x1_0 : (⟨S3300000, .i32⟩ : BufTy).Contents (Elt F) → (⟨S3300000x1, .i32⟩ : BufTy).Contents (Elt F)),
    ternary main_v10 main_v11 main_v9 main_v12 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]
theorem st3_eq : ((ops : List (HloOp τ sig (Elt F))).drop 11).take 4 = st3 := rfl

/-- Operations 16 … 23: its inverse square root. -/
abbrev st4 : List (HloOp τ sig (Elt F)) :=
  [
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) main_call0.v0 id,
    TRef.unary main_call0.v0 main_call0.v1 (broadcastInDim S100000 ![] bcast_S_S100000),
    TRef.ternary (TRef.of (T := ⟨S100000, .i1⟩) main_v14) (TRef.of (T := ⟨S100000, .f32⟩) main_v15) main_call0.v1 main_call0.v2 select ]
theorem st4_eq : ((ops : List (HloOp τ sig (Elt F))).drop 15).take 8 = st4 := rfl

/-- Operations 24 … 43: the normalised edge weights. -/
abbrev st5 : List (HloOp τ sig (Elt F)) :=
  [
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v9 main_v24 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v25 (broadcastInDim S3300000 ![] bcast_S_S3300000 : (⟨S_, .i32⟩ : BufTy).Contents (Elt F) → (⟨S3300000, .i32⟩ : BufTy).Contents (Elt F)),
    binary main_v7 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v27 (broadcastInDim S3300000 ![] bcast_S_S3300000 : (⟨S_, .i32⟩ : BufTy).Contents (Elt F) → (⟨S3300000, .i32⟩ : BufTy).Contents (Elt F)),
    binary main_v7 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v7 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)) ]
theorem st5_eq : ((ops : List (HloOp τ sig (Elt F))).drop 23).take 20 = st5 := rfl

/-- Operations 44 … 44: the feature product. -/
abbrev st6 : List (HloOp τ sig (Elt F)) :=
  [
    binary main_arg0 main_arg2 main_v33 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]
theorem st6_eq : ((ops : List (HloOp τ sig (Elt F))).drop 43).take 1 = st6 := rfl

/-- Operations 45 … 60: the first neighbourhood sum. -/
abbrev st7 : List (HloOp τ sig (Elt F)) :=
  [
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v33 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v41 (broadcastInDim S3300000x1 ![0] bcast_S3300000_S3300000x1_0 : (⟨S3300000, .f32⟩ : BufTy).Contents (Elt F) → (⟨S3300000x1, .f32⟩ : BufTy).Contents (Elt F)),
    unary main_v41 main_v42 (broadcastInDim S3300000x16 ![0, 1] bcast_S3300000x1_S3300000x16_0_1 : (⟨S3300000x1, .f32⟩ : BufTy).Contents (Elt F) → (⟨S3300000x16, .f32⟩ : BufTy).Contents (Elt F)),
    binary main_v40 main_v42 main_v43 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v44 (broadcastInDim S100000x16 ![] bcast_S_S100000x16 : (⟨S_, .f32⟩ : BufTy).Contents (Elt F) → (⟨S100000x16, .f32⟩ : BufTy).Contents (Elt F)),
    unary main_v7 main_v45 (broadcastInDim S3300000x1 ![0] bcast_S3300000_S3300000x1_0 : (⟨S3300000, .i32⟩ : BufTy).Contents (Elt F) → (⟨S3300000x1, .i32⟩ : BufTy).Contents (Elt F)),
    ternary main_v44 main_v45 main_v43 main_v46 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
theorem st7_eq : ((ops : List (HloOp τ sig (Elt F))).drop 44).take 16 = st7 := rfl

/-- Operations 61 … 67: the hidden layer. -/
abbrev st8 : List (HloOp τ sig (Elt F)) :=
  [
    unary main_arg3 main_v47 (broadcastInDim S1x16 ![1] bcast_S16_S1x16_1 : (⟨S16, .f32⟩ : BufTy).Contents (Elt F) → (⟨S1x16, .f32⟩ : BufTy).Contents (Elt F)),
    unary main_v47 main_v48 (broadcastInDim S100000x16 ![0, 1] bcast_S1x16_S100000x16_0_1 : (⟨S1x16, .f32⟩ : BufTy).Contents (Elt F) → (⟨S100000x16, .f32⟩ : BufTy).Contents (Elt F)),
    binary main_v46 main_v48 main_v49 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (TRef.of (T := ⟨S100000x16, .f32⟩) main_v49) main_call1.v0 main_call1.v1 maximumf,
    binary main_v50 main_arg4 main_v51 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]
theorem st8_eq : ((ops : List (HloOp τ sig (Elt F))).drop 60).take 7 = st8 := rfl

/-- Operations 68 … 83: the second neighbourhood sum. -/
abbrev st9 : List (HloOp τ sig (Elt F)) :=
  [
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v3 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v3 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v3 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v51 main_v57 main_v58 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v32 main_v59 (broadcastInDim S3300000x1 ![0] bcast_S3300000_S3300000x1_0 : (⟨S3300000, .f32⟩ : BufTy).Contents (Elt F) → (⟨S3300000x1, .f32⟩ : BufTy).Contents (Elt F)),
    unary main_v59 main_v60 (broadcastInDim S3300000x40 ![0, 1] bcast_S3300000x1_S3300000x40_0_1 : (⟨S3300000x1, .f32⟩ : BufTy).Contents (Elt F) → (⟨S3300000x40, .f32⟩ : BufTy).Contents (Elt F)),
    binary main_v58 main_v60 main_v61 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v62 (broadcastInDim S100000x40 ![] bcast_S_S100000x40 : (⟨S_, .f32⟩ : BufTy).Contents (Elt F) → (⟨S100000x40, .f32⟩ : BufTy).Contents (Elt F)),
    unary main_v7 main_v63 (broadcastInDim S3300000x1 ![0] bcast_S3300000_S3300000x1_0 : (⟨S3300000, .i32⟩ : BufTy).Contents (Elt F) → (⟨S3300000x1, .i32⟩ : BufTy).Contents (Elt F)),
    ternary main_v62 main_v63 main_v61 main_v64 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]
theorem st9_eq : ((ops : List (HloOp τ sig (Elt F))).drop 67).take 16 = st9 := rfl

/-- Operations 84 … 101: the row-wise log-softmax. -/
abbrev st10 : List (HloOp τ sig (Elt F)) :=
  [
    unary main_arg5 main_v65 (broadcastInDim S1x40 ![1] bcast_S40_S1x40_1 : (⟨S40, .f32⟩ : BufTy).Contents (Elt F) → (⟨S1x40, .f32⟩ : BufTy).Contents (Elt F)),
    unary main_v65 main_v66 (broadcastInDim S100000x40 ![0, 1] bcast_S1x40_S100000x40_0_1 : (⟨S1x40, .f32⟩ : BufTy).Contents (Elt F) → (⟨S100000x40, .f32⟩ : BufTy).Contents (Elt F)),
    binary main_v64 main_v66 main_v67 (addf : (⟨S100000x40, .f32⟩ : BufTy).Contents (Elt F) → (⟨S100000x40, .f32⟩ : BufTy).Contents (Elt F) → (⟨S100000x40, .f32⟩ : BufTy).Contents (Elt F)),
    TRef.nullary main_call2.cst (constant S_ .f32 0xFF800000#32),
    TRef.binary (TRef.of (T := ⟨S100000x40, .f32⟩) main_v67) main_call2.cst main_call2.v0 (fun x v => Host.reduce FloatOps.maximumf x v reducesTo_S100000x40_S100000_d1 h_S_),
    TRef.nullary main_call2.cst_0 (constant S_ .f32 0xFF800000#32),
    TRef.unary main_call2.cst_0 main_call2.v1 (broadcastInDim S100000 ![] bcast_S_S100000),
    TRef.binary main_call2.v1 main_call2.v0 main_call2.v2 maximumf,
    TRef.unary main_call2.v2 main_call2.v3 (broadcastInDim S100000x1 ![0] bcast_S100000_S100000x1_0),
    TRef.unary main_call2.v3 main_call2.v4 (broadcastInDim S100000x40 ![0, 1] bcast_S100000x1_S100000x40_0_1),
    TRef.binary (TRef.of (T := ⟨S100000x40, .f32⟩) main_v67) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S100000x40_S100000_d1 h_S_),
    TRef.unary main_call2.v7 main_call2.v8 (broadcastInDim S100000x1 ![0] bcast_S100000_S100000x1_0),
    TRef.unary main_call2.v8 main_call2.v9 Host.log,
    TRef.unary main_call2.v9 main_call2.v10 (broadcastInDim S100000x40 ![0, 1] bcast_S100000x1_S100000x40_0_1),
    TRef.binary main_call2.v5 main_call2.v10 main_call2.v11 subf ]
theorem st10_eq : ((ops : List (HloOp τ sig (Elt F))).drop 83).take 18 = st10 := rfl

end Stretches

/-! ## The spec's quantities as functions of the quantities they are computed from -/

/-- The weighted in-degree from the target list and the weights. -/
def degreeOf (d : Spec.I32 S3300000) (w : Spec.F32 S3300000) : Spec.F32 S100000 :=
  Host.scatterAdd scatter_S100000_S3300000x1_S3300000_n_0_0_1
    (broadcastInDim S100000 ![] bcast_S_S100000 (constant (F := Ideal) S_ .f32 0x00000000#32)) (Spec.asColumn d) w

/-- The inverse square root of the degree where it is positive, zero elsewhere. -/
def invSqrtOf (deg : Spec.F32 S100000) : Spec.F32 S100000 :=
  select (cmpf .ogt deg (broadcastInDim S100000 ![] bcast_S_S100000 (constant (F := Ideal) S_ .f32 0x00000000#32)))
    (Host.rsqrt deg)
    (broadcastInDim S100000 ![] bcast_S_S100000 (id (constant (F := Ideal) S_ .f32 0x00000000#32)))

/-- The normalised edge weights from the inverse square roots, the two end-point lists and the weights. -/
def normOf (isd : Spec.F32 S100000) (s d : Spec.I32 S3300000) (w : Spec.F32 S3300000) : Spec.F32 S3300000 :=
  mulf (mulf (Host.gather gather_S100000_S3300000x1_S3300000_n_0_n_n_0_1_1 isd (Spec.asColumn (Spec.wrapped s))) w)
    (Host.gather gather_S100000_S3300000x1_S3300000_n_0_n_n_0_1_1 isd (Spec.asColumn (Spec.wrapped d)))

/-- The neighbourhood sum of a 16-column node array from the end-point lists and the normalised weights. -/
def agg16Of (h : Spec.F32 S100000x16) (s d : Spec.I32 S3300000) (nrm : Spec.F32 S3300000) : Spec.F32 S100000x16 :=
  Host.scatterAdd scatter_S100000x16_S3300000x1_S3300000x16_1_0_0_1
    (broadcastInDim S100000x16 ![] bcast_S_S100000x16 (constant (F := Ideal) S_ .f32 0x00000000#32)) (Spec.asColumn d)
    (mulf (Host.gather gather_S100000x16_S3300000x1_S3300000x16_1_0_n_n_0_1_116 h (Spec.asColumn (Spec.wrapped s)))
      (broadcastInDim S3300000x16 ![0, 1] bcast_S3300000x1_S3300000x16_0_1
        (broadcastInDim S3300000x1 ![0] bcast_S3300000_S3300000x1_0 nrm)))

/-- The neighbourhood sum of a 40-column node array from the end-point lists and the normalised weights. -/
def agg40Of (h : Spec.F32 S100000x40) (s d : Spec.I32 S3300000) (nrm : Spec.F32 S3300000) : Spec.F32 S100000x40 :=
  Host.scatterAdd scatter_S100000x40_S3300000x1_S3300000x40_1_0_0_1
    (broadcastInDim S100000x40 ![] bcast_S_S100000x40 (constant (F := Ideal) S_ .f32 0x00000000#32)) (Spec.asColumn d)
    (mulf (Host.gather gather_S100000x40_S3300000x1_S3300000x40_1_0_n_n_0_1_140 h (Spec.asColumn (Spec.wrapped s)))
      (broadcastInDim S3300000x40 ![0, 1] bcast_S3300000x1_S3300000x40_0_1
        (broadcastInDim S3300000x1 ![0] bcast_S3300000_S3300000x1_0 nrm)))

/-! ## Each stretch read from any starting contents -/

section Read

variable (W : Valuation τ sig (Elt Ideal))

set_option maxRecDepth 65536 in
theorem st1_src : after (st1 (F := Ideal)) W (main_v3 : DevRef τ sig) = Spec.src (W (main_arg6 : DevRef τ sig)) := by
  simp only [after_cons, after_nil]
  rfl

set_option maxRecDepth 65536 in
theorem st1_dst : after (st1 (F := Ideal)) W (main_v7 : DevRef τ sig) = Spec.dst (W (main_arg6 : DevRef τ sig)) := by
  simp only [after_cons, after_nil]
  rfl

set_option maxRecDepth 65536 in
theorem st2_weights : after (st2 (F := Ideal)) W (main_v9 : DevRef τ sig) = Spec.weights (W (main_arg1 : DevRef τ sig)) := by
  simp only [after_cons, after_nil]
  rfl

set_option maxRecDepth 65536 in
theorem st3_degree : after (st3 (F := Ideal)) W (main_v12 : DevRef τ sig) = degreeOf (W (main_v7 : DevRef τ sig)) (W (main_v9 : DevRef τ sig)) := by
  simp only [after_cons, after_nil]
  rfl

set_option maxRecDepth 65536 in
theorem st4_invSqrt : after (st4 (F := Ideal)) W (main_v16 : DevRef τ sig) = invSqrtOf (W (main_v12 : DevRef τ sig)) := by
  simp only [after_cons, after_nil]
  rfl

set_option maxRecDepth 65536 in
theorem st5_norm : after (st5 (F := Ideal)) W (main_v32 : DevRef τ sig)
    = normOf (W (main_v16 : DevRef τ sig)) (W (main_v3 : DevRef τ sig)) (W (main_v7 : DevRef τ sig)) (W (main_v9 : DevRef τ sig)) := by
  simp only [after_cons, after_nil]
  rfl

set_option maxRecDepth 65536 in
/-- A product with the plain dimension numbers is the matrix product. -/
theorem st6_prod : after (st6 (F := Ideal)) W (main_v33 : DevRef τ sig)
    = MatProd.matProd (M := 100000) (K := 512) (N := 16) (φ₁ := .f32) (φ₂ := .f32) (W (main_arg0 : DevRef τ sig)) (W (main_arg2 : DevRef τ sig)) := by
  refine Eq.trans ?_ (MatProd.dotGeneral_eq_matProd dot_S100000x512_S512x16_S100000x16_1_0_0_1_n_n rfl none .single _ _)
  simp only [after_cons, after_nil]
  rfl

set_option maxRecDepth 65536 in
theorem st7_agg : after (st7 (F := Ideal)) W (main_v46 : DevRef τ sig)
    = agg16Of (W (main_v33 : DevRef τ sig)) (W (main_v3 : DevRef τ sig)) (W (main_v7 : DevRef τ sig)) (W (main_v32 : DevRef τ sig)) := by
  simp only [after_cons, after_nil]
  rfl

set_option maxRecDepth 65536 in
/-- The bias spread along the rows, the maximum with a spread zero and the product are the hidden layer. -/
theorem st8_hidden : after (st8 (F := Ideal)) W (main_v51 : DevRef τ sig)
    = GraphConvLayers.hidden (M := 100000) (K := 16) (N := 40) (W (main_v46 : DevRef τ sig)) (W (main_arg3 : DevRef τ sig)) (W (main_arg4 : DevRef τ sig)) := by
  refine Eq.trans ?_ (GraphConvLayers.host_hidden dot_S100000x16_S16x40_S100000x40_1_0_0_1_n_n rfl none .single
    bcast_S16_S1x16_1 bcast_S1x16_S100000x16_0_1 bcast_S_S100000x16 _ _ _)
  simp only [after_cons, after_nil]
  rfl

set_option maxRecDepth 65536 in
theorem st9_agg : after (st9 (F := Ideal)) W (main_v64 : DevRef τ sig)
    = agg40Of (W (main_v51 : DevRef τ sig)) (W (main_v3 : DevRef τ sig)) (W (main_v7 : DevRef τ sig)) (W (main_v32 : DevRef τ sig)) := by
  simp only [after_cons, after_nil]
  rfl

set_option maxRecDepth 200000 in
set_option maxHeartbeats 2000000 in
/-- The bias spread along the rows, then the row maximum (kept as a column and spread back), the exponentials, their row
    sum (likewise) and its logarithm are the row-wise log-softmax. -/
theorem st10_out : after (st10 (F := Ideal)) W (main_v68 : DevRef τ sig)
    = GraphConvLayers.biasLogSoftmax (M := 100000) (N := 40) (W (main_v64 : DevRef τ sig)) (W (main_arg5 : DevRef τ sig)) := by
  refine Eq.trans ?_ (GraphConvLayers.host_biasLogSoftmax bcast_S40_S1x40_1 bcast_S1x40_S100000x40_0_1
    reducesTo_S100000x40_S100000_d1 (by decide) h_S_ bcast_S_S100000 bcast_S100000_S100000x1_0 bcast_S100000x1_S100000x40_0_1 _ _)
  read_fold_casts [StableHlo.TRef.ofBuf_toBuf]
  rfl

end Read

/-! ## The whole line -/

section Whole

variable (V : Valuation τ sig (Elt Ideal))

/-- What the whole line leaves in an array. -/
local notation "valOf" => after (ops (F := Ideal)) V

/-- No operation writes an argument. -/
theorem val_arg (r : Ref sig .tc) (hr : r ∉ written) : valOf (Proc.devRef .tc r) = V (Proc.devRef .tc r) :=
  after_of_not_mem_writesOnly (ops_written (F := Ideal)) V r hr

theorem val_src : valOf (main_v3 : DevRef τ sig) = Spec.src (V (main_arg6 : DevRef τ sig)) := by
  rw [after_read_stretch (ops_written (F := Ideal)) 0 8 V main_v3 (by decide), st1_eq, st1_src, after_take_of_not_mem (ops_written (F := Ideal)) 0 V main_arg6 (by decide)]

theorem val_dst : valOf (main_v7 : DevRef τ sig) = Spec.dst (V (main_arg6 : DevRef τ sig)) := by
  rw [after_read_stretch (ops_written (F := Ideal)) 0 8 V main_v7 (by decide), st1_eq, st1_dst, after_take_of_not_mem (ops_written (F := Ideal)) 0 V main_arg6 (by decide)]

theorem val_weights : valOf (main_v9 : DevRef τ sig) = Spec.weights (V (main_arg1 : DevRef τ sig)) := by
  rw [after_read_stretch (ops_written (F := Ideal)) 8 3 V main_v9 (by decide), st2_eq, st2_weights, after_take_of_not_mem (ops_written (F := Ideal)) 8 V main_arg1 (by decide)]

theorem val_degree : valOf (main_v12 : DevRef τ sig) = Spec.degree (V (main_arg1 : DevRef τ sig)) (V (main_arg6 : DevRef τ sig)) := by
  rw [after_read_stretch (ops_written (F := Ideal)) 11 4 V main_v12 (by decide), st3_eq, st3_degree, after_take_eq (ops_written (F := Ideal)) 11 V main_v7 (by decide), after_take_eq (ops_written (F := Ideal)) 11 V main_v9 (by decide),
    val_dst, val_weights]
  rfl

theorem val_invSqrt : valOf (main_v16 : DevRef τ sig) = Spec.invSqrtDegree (V (main_arg1 : DevRef τ sig)) (V (main_arg6 : DevRef τ sig)) := by
  rw [after_read_stretch (ops_written (F := Ideal)) 15 8 V main_v16 (by decide), st4_eq, st4_invSqrt, after_take_eq (ops_written (F := Ideal)) 15 V main_v12 (by decide), val_degree]
  rfl

theorem val_norm : valOf (main_v32 : DevRef τ sig) = Spec.norm (V (main_arg1 : DevRef τ sig)) (V (main_arg6 : DevRef τ sig)) := by
  rw [after_read_stretch (ops_written (F := Ideal)) 23 20 V main_v32 (by decide), st5_eq, st5_norm, after_take_eq (ops_written (F := Ideal)) 23 V main_v16 (by decide), after_take_eq (ops_written (F := Ideal)) 23 V main_v3 (by decide),
    after_take_eq (ops_written (F := Ideal)) 23 V main_v7 (by decide), after_take_eq (ops_written (F := Ideal)) 23 V main_v9 (by decide), val_invSqrt, val_src, val_dst, val_weights]
  rfl

theorem val_prod : valOf (main_v33 : DevRef τ sig)
    = MatProd.matProd (M := 100000) (K := 512) (N := 16) (φ₁ := .f32) (φ₂ := .f32) (V (main_arg0 : DevRef τ sig)) (V (main_arg2 : DevRef τ sig)) := by
  rw [after_read_stretch (ops_written (F := Ideal)) 43 1 V main_v33 (by decide), st6_eq, st6_prod, after_take_of_not_mem (ops_written (F := Ideal)) 43 V main_arg0 (by decide), after_take_of_not_mem (ops_written (F := Ideal)) 43 V main_arg2 (by decide)]

theorem val_agg16 : valOf (main_v46 : DevRef τ sig)
    = Spec.agg16 (MatProd.matProd (φ₁ := .f32) (φ₂ := .f32) (V (main_arg0 : DevRef τ sig)) (V (main_arg2 : DevRef τ sig))) (V (main_arg1 : DevRef τ sig)) (V (main_arg6 : DevRef τ sig)) := by
  rw [after_read_stretch (ops_written (F := Ideal)) 44 16 V main_v46 (by decide), st7_eq, st7_agg, after_take_eq (ops_written (F := Ideal)) 44 V main_v33 (by decide), after_take_eq (ops_written (F := Ideal)) 44 V main_v3 (by decide),
    after_take_eq (ops_written (F := Ideal)) 44 V main_v7 (by decide), after_take_eq (ops_written (F := Ideal)) 44 V main_v32 (by decide), val_prod, val_src, val_dst, val_norm]
  rfl

theorem val_hidden : valOf (main_v51 : DevRef τ sig)
    = GraphConvLayers.hidden (Spec.agg16 (MatProd.matProd (φ₁ := .f32) (φ₂ := .f32) (V (main_arg0 : DevRef τ sig)) (V (main_arg2 : DevRef τ sig))) (V (main_arg1 : DevRef τ sig)) (V (main_arg6 : DevRef τ sig)))
        (V (main_arg3 : DevRef τ sig)) (V (main_arg4 : DevRef τ sig)) := by
  rw [after_read_stretch (ops_written (F := Ideal)) 60 7 V main_v51 (by decide), st8_eq, st8_hidden, after_take_eq (ops_written (F := Ideal)) 60 V main_v46 (by decide), after_take_of_not_mem (ops_written (F := Ideal)) 60 V main_arg3 (by decide),
    after_take_of_not_mem (ops_written (F := Ideal)) 60 V main_arg4 (by decide), val_agg16]

theorem val_agg40 : valOf (main_v64 : DevRef τ sig)
    = Spec.agg40 (GraphConvLayers.hidden (Spec.agg16 (MatProd.matProd (φ₁ := .f32) (φ₂ := .f32) (V (main_arg0 : DevRef τ sig)) (V (main_arg2 : DevRef τ sig))) (V (main_arg1 : DevRef τ sig)) (V (main_arg6 : DevRef τ sig)))
        (V (main_arg3 : DevRef τ sig)) (V (main_arg4 : DevRef τ sig))) (V (main_arg1 : DevRef τ sig)) (V (main_arg6 : DevRef τ sig)) := by
  rw [after_read_stretch (ops_written (F := Ideal)) 67 16 V main_v64 (by decide), st9_eq, st9_agg, after_take_eq (ops_written (F := Ideal)) 67 V main_v51 (by decide), after_take_eq (ops_written (F := Ideal)) 67 V main_v3 (by decide),
    after_take_eq (ops_written (F := Ideal)) 67 V main_v7 (by decide), after_take_eq (ops_written (F := Ideal)) 67 V main_v32 (by decide), val_hidden, val_src, val_dst, val_norm]
  rfl

/-- The result array holds the network of the seven arguments. -/
theorem val_out : valOf (main_v68 : DevRef τ sig)
    = Spec.network (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_read_stretch (ops_written (F := Ideal)) 83 18 V main_v68 (by decide), st10_eq, st10_out, after_take_eq (ops_written (F := Ideal)) 83 V main_v64 (by decide), after_take_of_not_mem (ops_written (F := Ideal)) 83 V main_arg5 (by decide), val_agg40]
  rfl

end Whole

end Cert.ReferenceIdeal.HandRun

end
-- ==== Proof.RefRun.lean ====
/-
  The run of the reference network: from any memory with zero counters every weakly fair execution terminates, the result
  array holding the network function of the seven argument arrays as they were at the start, and the arguments unchanged.

  The program is a straight line of whole-array operations on one core, so it runs to its end and every array ends at the
  fold of the operations over the starting contents; the fold at the result array is the network, and at an argument,
  which no operation writes, the starting contents.
-/
import proofs.«167888_j10471130267748_1_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68)
          = Cert.ReferenceIdeal.Spec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v68).trans (val_out _),
      (h c main_arg0).trans (val_arg _ main_arg0 (by decide)),
      (h c main_arg1).trans (val_arg _ main_arg1 (by decide)),
      (h c main_arg2).trans (val_arg _ main_arg2 (by decide)),
      (h c main_arg3).trans (val_arg _ main_arg3 (by decide)),
      (h c main_arg4).trans (val_arg _ main_arg4 (by decide)),
      (h c main_arg5).trans (val_arg _ main_arg5 (by decide)),
      (h c main_arg6).trans (val_arg _ main_arg6 (by decide))⟩)
    (run_seq scopedRefs_eq scopedSems_eq defs main (fun _ => ops) main_eq (fun _ => ops_sub) m ρ (fun _ => ops_fresh))

end Cert.ReferenceIdeal.HandRun

end
-- ==== Proof.lean ====
/-
  A two-layer graph convolution computed by four tiled stages, against the same network written with whole-array
  operations.

  Both programs build the same edge data (the ends of every edge with a self loop per node, and the normalised edge
  weights) by the same whole-array operations, and both take the same two neighbourhood sums. They differ in the dense
  maps between them: one program computes `x · W1`, `relu (a + b1)`, `r · W2` and `log_softmax (a + b2)` in row tiles
  (the products on inputs narrowed to a shorter float format, which over the extended reals changes nothing), the other
  with whole-array products, broadcasts and reductions. Every entry of these maps depends on one row of its row-indexed
  operand only, so a tile of the map is the map of the tile; and the maximum of a row taken once more with minus infinity
  is the row's maximum. Hence both programs end with the one network function of the seven argument arrays
  (`Spec.network`), on all extended reals: the finiteness of the inputs is not used.

  The tiled program's frame and the run of its segments are generated; its value is read back through the segments in
  Proof/KernelChain.lean over the four stage values (Proof/TileProduct1, TileBiasRelu, TileProduct2, TileLogSoftmax); the
  other program's run is in Proof/RefRun.lean. Nothing was rewritten when the tiled program was read over the extended
  reals, so that reading is the program's own text.
-/
import proofs.«167888_j10471130267748_1_alg».proof.Defs
import proofs.«167888_j10471130267748_1_alg».proof.Proof.Gen.Kernel
import proofs.«167888_j10471130267748_1_alg».proof.Proof.Gen.Kernel.Frame
import proofs.«167888_j10471130267748_1_alg».proof.Proof.Gen.KernelIdeal
import proofs.«167888_j10471130267748_1_alg».proof.Proof.Gen.KernelIdeal.Frame
import proofs.«167888_j10471130267748_1_alg».proof.Proof.Gen.ReferenceIdeal
import proofs.«167888_j10471130267748_1_alg».proof.Proof.Gen.Pre_finite_inputs
import proofs.«167888_j10471130267748_1_alg».proof.Proof.KernelRun
import proofs.«167888_j10471130267748_1_alg».proof.Proof.KernelChain
import proofs.«167888_j10471130267748_1_alg».proof.Proof.TileProduct2
import proofs.«167888_j10471130267748_1_alg».proof.Proof.TileBiasRelu
import proofs.«167888_j10471130267748_1_alg».proof.Proof.TileLogSoftmax
import proofs.«167888_j10471130267748_1_alg».proof.Proof.RefRun
import Idealize.ShloMosaic.Adequacy
import Idealize.ShloMosaic.Init

noncomputable section

namespace Cert.Proof

open Idealize.ShloMosaic Idealize.SL.Sem

/-- The four tiled stages' values. -/
theorem stages : Cert.KernelIdeal.Chain.Stages :=
  ⟨Cert.KernelIdeal.Tiles.product1, Cert.KernelIdeal.Tiles.biasRelu, Cert.KernelIdeal.Tiles.product2,
    Cert.KernelIdeal.Tiles.logSoftmax⟩

/-- The same network, whichever program's constants spell it. -/
theorem network_eq : @Cert.ReferenceIdeal.Spec.network = @Cert.KernelIdeal.Spec.network := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run m ρ)

/-- Both programs, run from memories that agree on the arguments, end with the network function of those arguments
    in their result arrays, and with the arguments as launched. -/
theorem algebraic : Cert.algebraic_KernelIdeal_ReferenceIdeal := by
  intro m ρ m' ρ' _ hagree
  refine ⟨fun c => Cert.KernelIdeal.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ stages c), (h c).2⟩)
      (Cert.KernelIdeal.ValueRun.run_end m ρ)
  · refine (θ_run Cert.ReferenceIdeal.defs _ _).mono (fun r h c => ⟨(h c).1.trans ?_, (h c).2⟩)
      (Cert.ReferenceIdeal.HandRun.run m' ρ')
    obtain ⟨e0, e1, e2, e3, e4, e5, e6⟩ := hagree c
    rw [e0, e1, e2, e3, e4, e5, e6, network_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
